-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000 : Shape := ⟨1, ![1000000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_arg20 : FVec F S64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg16 : FVec F S64 .f32) (main_arg17 : FVec F S64x64 .f32) (main_arg18 : FVec F S64 .f32) (main_arg19 : FVec F S64x64 .f32) (main_arg20 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_v48 main_v49 main_v50

def fn_part1 {F : FTy → Type} [FloatOps F] (main_arg6 : FVec F S64 .f32) (main_arg7 : FVec F S64x128 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : IVec S2x1000000 32) (main_arg2 : IVec S1000000 32) (main_arg3 : FVec F S64x128 .f32) (main_arg4 : FVec F S64 .f32) (main_arg5 : FVec F S64x128 .f32) (main_arg6 : FVec F S64 .f32) (main_arg7 : FVec F S64x128 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S2x1000000 : Shape := ⟨2, ![2, 1000000]⟩
abbrev S1000000 : Shape := ⟨1, ![1000000]⟩
abbrev S64x128 : Shape := ⟨2, ![64, 128]⟩
abbrev S64 : Shape := ⟨1, ![64]⟩
abbrev S64x64 : Shape := ⟨2, ![64, 64]⟩
abbrev S1x1000000 : Shape := ⟨2, ![1, 1000000]⟩
abbrev S_ : Shape := ⟨0, ![]⟩
abbrev S1000000x1 : Shape := ⟨2, ![1000000, 1]⟩
abbrev S1000000x128 : Shape := ⟨2, ![1000000, 128]⟩
abbrev S100000x256 : Shape := ⟨2, ![100000, 256]⟩
abbrev S64x256 : Shape := ⟨2, ![64, 256]⟩
abbrev S1x64 : Shape := ⟨2, ![1, 64]⟩
abbrev S100000x64 : Shape := ⟨2, ![100000, 64]⟩
abbrev S5000x256 : Shape := ⟨2, ![5000, 256]⟩
abbrev S5000x64 : Shape := ⟨2, ![5000, 64]⟩
abbrev S256x64 : Shape := ⟨2, ![256, 64]⟩
abbrev S1000000x64 : Shape := ⟨2, ![1000000, 64]⟩
abbrev S5000x128 : Shape := ⟨2, ![5000, 128]⟩
abbrev S128x64 : Shape := ⟨2, ![128, 64]⟩

abbrev nBuf : Space → Nat
  | .hbm => 109
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000, .i32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S1x1000000, .i32⟩
  | .hbm, ⟨22, _⟩ => ⟨S1000000, .i32⟩
  | .hbm, ⟨23, _⟩ => ⟨S1x1000000, .i32⟩
  | .hbm, ⟨24, _⟩ => ⟨S1000000, .i32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S1000000x1, .i1⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x128, .f32⟩
  | .hbm, ⟨38, _⟩ => ⟨S_, .f32⟩
  | .hbm, ⟨39, _⟩ => ⟨S1000000x128, .i1⟩
  | .hbm, ⟨40, _⟩ => ⟨S1000000x128, .f32⟩
  | .hbm, ⟨41, _⟩ => ⟨S1000000x128, .f32⟩
  | .hbm, ⟨42, _⟩ => ⟨S_, .f32⟩
  | .hbm, ⟨43, _⟩ => ⟨S100000x128, .f32⟩
  | .hbm, ⟨44, _⟩ => ⟨S1000000x1, .i32⟩
  | .hbm, ⟨45, _⟩ => ⟨S100000x128, .f32⟩
  | .hbm, ⟨46, _⟩ => ⟨S64x128, .f32⟩
  | .hbm, ⟨47, _⟩ => ⟨S64, .f32⟩
  | .hbm, ⟨48, _⟩ => ⟨S100000x256, .f32⟩
  | .hbm, ⟨49, _⟩ => ⟨S64x256, .f32⟩
  | .hbm, ⟨50, _⟩ => ⟨S64, .f32⟩
  | .hbm, ⟨51, _⟩ => ⟨S1x64, .f32⟩
  | .hbm, ⟨52, _⟩ => ⟨S100000x64, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S1000000x1, .i1⟩
  | .hbm, ⟨57, _⟩ => ⟨S_, .i32⟩
  | .hbm, ⟨58, _⟩ => ⟨S1000000, .i32⟩
  | .hbm, ⟨59, _⟩ => ⟨S1000000, .i1⟩
  | .hbm, ⟨60, _⟩ => ⟨S_, .i32⟩
  | .hbm, ⟨61, _⟩ => ⟨S1000000, .i32⟩
  | .hbm, ⟨62, _⟩ => ⟨S1000000, .i32⟩
  | .hbm, ⟨63, _⟩ => ⟨S1000000, .i32⟩
  | .hbm, ⟨64, _⟩ => ⟨S1000000x1, .i32⟩
  | .hbm, ⟨65, _⟩ => ⟨S1000000x64, .f32⟩
  | .hbm, ⟨66, _⟩ => ⟨S_, .f32⟩
  | .hbm, ⟨67, _⟩ => ⟨S1000000x64, .i1⟩
  | .hbm, ⟨68, _⟩ => ⟨S1000000x64, .f32⟩
  | .hbm, ⟨69, _⟩ => ⟨S1000000x64, .f32⟩
  | .hbm, ⟨70, _⟩ => ⟨S_, .f32⟩
  | .hbm, ⟨71, _⟩ => ⟨S100000x64, .f32⟩
  | .hbm, ⟨72, _⟩ => ⟨S1000000x1, .i32⟩
  | .hbm, ⟨73, _⟩ => ⟨S100000x64, .f32⟩
  | .hbm, ⟨74, _⟩ => ⟨S64x64, .f32⟩
  | .hbm, ⟨75, _⟩ => ⟨S64, .f32⟩
  | .hbm, ⟨76, _⟩ => ⟨S100000x128, .f32⟩
  | .hbm, ⟨77, _⟩ => ⟨S64x128, .f32⟩
  | .hbm, ⟨78, _⟩ => ⟨S64, .f32⟩
  | .hbm, ⟨79, _⟩ => ⟨S1x64, .f32⟩
  | .hbm, ⟨80, _⟩ => ⟨S100000x64, .f32⟩
  | .hbm, ⟨81, _⟩ => ⟨S_, .i32⟩
  | .hbm, ⟨82, _⟩ => ⟨S1000000, .i32⟩
  | .hbm, ⟨83, _⟩ => ⟨S1000000, .i1⟩
  | .hbm, ⟨84, _⟩ => ⟨S1000000x1, .i1⟩
  | .hbm, ⟨85, _⟩ => ⟨S_, .i32⟩
  | .hbm, ⟨86, _⟩ => ⟨S1000000, .i32⟩
  | .hbm, ⟨87, _⟩ => ⟨S1000000, .i1⟩
  | .hbm, ⟨88, _⟩ => ⟨S_, .i32⟩
  | .hbm, ⟨89, _⟩ => ⟨S1000000, .i32⟩
  | .hbm, ⟨90, _⟩ => ⟨S1000000, .i32⟩
  | .hbm, ⟨91, _⟩ => ⟨S1000000, .i32⟩
  | .hbm, ⟨92, _⟩ => ⟨S1000000x1, .i32⟩
  | .hbm, ⟨93, _⟩ => ⟨S1000000x64, .f32⟩
  | .hbm, ⟨94, _⟩ => ⟨S_, .f32⟩
  | .hbm, ⟨95, _⟩ => ⟨S1000000x64, .i1⟩
  | .hbm, ⟨96, _⟩ => ⟨S1000000x64, .f32⟩
  | .hbm, ⟨97, _⟩ => ⟨S1000000x64, .f32⟩
  | .hbm, ⟨98, _⟩ => ⟨S_, .f32⟩
  | .hbm, ⟨99, _⟩ => ⟨S100000x64, .f32⟩
  | .hbm, ⟨100, _⟩ => ⟨S1000000x1, .i32⟩
  | .hbm, ⟨101, _⟩ => ⟨S100000x64, .f32⟩
  | .hbm, ⟨102, _⟩ => ⟨S64x64, .f32⟩
  | .hbm, ⟨103, _⟩ => ⟨S64, .f32⟩
  | .hbm, ⟨104, _⟩ => ⟨S100000x128, .f32⟩
  | .hbm, ⟨105, _⟩ => ⟨S64x128, .f32⟩
  | .hbm, ⟨106, _⟩ => ⟨S64, .f32⟩
  | .hbm, ⟨107, _⟩ => ⟨S1x64, .f32⟩
  | .hbm, ⟨108, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S64x256, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x128, .f32⟩
  | .local _ .vmem, ⟨7, _⟩ => ⟨S5000x128, .f32⟩
  | .local _ .vmem, ⟨8, _⟩ => ⟨S64x128, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x128, .f32⟩
  | .local _ .vmem, ⟨13, _⟩ => ⟨S5000x128, .f32⟩
  | .local _ .vmem, ⟨14, _⟩ => ⟨S64x128, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_c_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_3 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_4 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_6 : Ref sig .tc := ⟨.hbm, 66, rfl⟩
abbrev main_call1_v0 : Ref sig .tc := ⟨.hbm, 67, rfl⟩
abbrev main_call1_v1 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_8 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_9 : Ref sig .tc := ⟨.hbm, 85, rfl⟩
abbrev main_v49 : Ref sig .tc := ⟨.hbm, 86, rfl⟩
abbrev main_v50 : Ref sig .tc := ⟨.hbm, 87, rfl⟩
abbrev main_c_10 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_11 : Ref sig .tc := ⟨.hbm, 94, rfl⟩
abbrev main_call2_v0 : Ref sig .tc := ⟨.hbm, 95, rfl⟩
abbrev main_call2_v1 : Ref sig .tc := ⟨.hbm, 96, rfl⟩
abbrev main_v56 : Ref sig .tc := ⟨.hbm, 97, rfl⟩
abbrev main_cst_12 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S1000000x128 : S_.BroadcastsInDim S1000000x128 (![] : Fin 0 → Fin S1000000x128.rank)
  bcast_S_S100000x128 : S_.BroadcastsInDim S100000x128 (![] : Fin 0 → Fin S100000x128.rank)
  concatenates_S100000x128_S100000x128_S100000x256_d1 : Shape.Concatenates [S100000x128, S100000x128] S100000x256 1
  concatenates_S64x128_S64x128_S64x256_d1 : Shape.Concatenates [S64x128, S64x128] S64x256 1
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  transposes_S64x256_p1_0_S256x64 : S64x256.Transposes [1, 0] S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1000000x1_S1000000x64_0_1 : S1000000x1.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  concatenates_S100000x64_S100000x64_S100000x128_d1 : Shape.Concatenates [S100000x64, S100000x64] S100000x128 1
  concatenates_S64x64_S64x64_S64x128_d1 : Shape.Concatenates [S64x64, S64x64] S64x128 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  transposes_S64x128_p1_0_S128x64 : S64x128.Transposes [1, 0] S128x64
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x256_S256x64_S5000x64_1_0_0_1_n_n_wf : DotDims.WF S5000x256 S256x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v20) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000 : Shape := ⟨1, ![1000000]⟩
abbrev S64x128 : Shape := ⟨2, ![64, 128]⟩
abbrev S64 : Shape := ⟨1, ![64]⟩
abbrev S64x64 : Shape := ⟨2, ![64, 64]⟩
abbrev S1x1000000 : Shape := ⟨2, ![1, 1000000]⟩
abbrev S_ : Shape := ⟨0, ![]⟩
abbrev S1000000x1 : Shape := ⟨2, ![1000000, 1]⟩
abbrev S1000000x128 : Shape := ⟨2, ![1000000, 128]⟩
abbrev S128x64 : Shape := ⟨2, ![128, 64]⟩
abbrev S100000x64 : Shape := ⟨2, ![100000, 64]⟩
abbrev S1x64 : Shape := ⟨2, ![1, 64]⟩
abbrev S1000000x64 : Shape := ⟨2, ![1000000, 64]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x1000000, .i32⟩
  | 2 => ⟨S1000000, .i32⟩
  | 3 => ⟨S64x128, .f32⟩
  | 4 => ⟨S64, .f32⟩
  | 5 => ⟨S64x128, .f32⟩
  | 6 => ⟨S64, .f32⟩
  | 7 => ⟨S64x128, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S1x1000000, .i32⟩
  | 22 => ⟨S1000000, .i32⟩
  | 23 => ⟨S1x1000000, .i32⟩
  | 24 => ⟨S1000000, .i32⟩
  | 25 => ⟨S_, .i32⟩
  | 26 => ⟨S1000000, .i32⟩
  | 27 => ⟨S1000000, .i1⟩
  | 28 => ⟨S1000000x1, .i1⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x128, .f32⟩
  | 38 => ⟨S_, .f32⟩
  | 39 => ⟨S1000000x128, .i1⟩
  | 40 => ⟨S1000000x128, .f32⟩
  | 41 => ⟨S1000000x128, .f32⟩
  | 42 => ⟨S_, .f32⟩
  | 43 => ⟨S100000x128, .f32⟩
  | 44 => ⟨S1000000x1, .i32⟩
  | 45 => ⟨S100000x128, .f32⟩
  | 46 => ⟨S128x64, .f32⟩
  | 47 => ⟨S100000x64, .f32⟩
  | 48 => ⟨S1x64, .f32⟩
  | 49 => ⟨S100000x64, .f32⟩
  | 50 => ⟨S100000x64, .f32⟩
  | 51 => ⟨S128x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S128x64, .f32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S_, .i32⟩
  | 67 => ⟨S1000000, .i32⟩
  | 68 => ⟨S1000000, .i1⟩
  | 69 => ⟨S1000000x1, .i1⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x64, .f32⟩
  | 79 => ⟨S_, .f32⟩
  | 80 => ⟨S1000000x64, .i1⟩
  | 81 => ⟨S1000000x64, .f32⟩
  | 82 => ⟨S1000000x64, .f32⟩
  | 83 => ⟨S_, .f32⟩
  | 84 => ⟨S100000x64, .f32⟩
  | 85 => ⟨S1000000x1, .i32⟩
  | 86 => ⟨S100000x64, .f32⟩
  | 87 => ⟨S64x64, .f32⟩
  | 88 => ⟨S100000x64, .f32⟩
  | 89 => ⟨S1x64, .f32⟩
  | 90 => ⟨S100000x64, .f32⟩
  | 91 => ⟨S100000x64, .f32⟩
  | 92 => ⟨S64x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S64x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S_, .i32⟩
  | 108 => ⟨S1000000, .i32⟩
  | 109 => ⟨S1000000, .i1⟩
  | 110 => ⟨S1000000x1, .i1⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x64, .f32⟩
  | 120 => ⟨S_, .f32⟩
  | 121 => ⟨S1000000x64, .i1⟩
  | 122 => ⟨S1000000x64, .f32⟩
  | 123 => ⟨S1000000x64, .f32⟩
  | 124 => ⟨S_, .f32⟩
  | 125 => ⟨S100000x64, .f32⟩
  | 126 => ⟨S1000000x1, .i32⟩
  | 127 => ⟨S100000x64, .f32⟩
  | _ => ⟨S100000x128, .f32⟩

abbrev hbmTy0_1 (i : Nat) : BufTy := match i % 128 with
  | 0 => ⟨S64x64, .f32⟩
  | 1 => ⟨S100000x64, .f32⟩
  | 2 => ⟨S1x64, .f32⟩
  | 3 => ⟨S100000x64, .f32⟩
  | 4 => ⟨S100000x64, .f32⟩
  | 5 => ⟨S64x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S64x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S_, .f32⟩
  | 18 => ⟨S100000x64, .f32⟩
  | 19 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_c_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call1_cst : Ref sig .tc := ⟨.hbm, 63, rfl⟩
abbrev main_call1_v0 : Ref sig .tc := ⟨.hbm, 64, rfl⟩
abbrev main_v35 : Ref sig .tc := ⟨.hbm, 65, rfl⟩
abbrev main_c_3 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_4 : Ref sig .tc := ⟨.hbm, 70, rfl⟩
abbrev main_v39 : Ref sig .tc := ⟨.hbm, 71, rfl⟩
abbrev main_v40 : Ref sig .tc := ⟨.hbm, 72, rfl⟩
abbrev main_c_5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_6 : Ref sig .tc := ⟨.hbm, 79, rfl⟩
abbrev main_call2_v0 : Ref sig .tc := ⟨.hbm, 80, rfl⟩
abbrev main_call2_v1 : Ref sig .tc := ⟨.hbm, 81, rfl⟩
abbrev main_v46 : Ref sig .tc := ⟨.hbm, 82, rfl⟩
abbrev main_cst_7 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call3_cst : Ref sig .tc := ⟨.hbm, 104, rfl⟩
abbrev main_call3_v0 : Ref sig .tc := ⟨.hbm, 105, rfl⟩
abbrev main_v67 : Ref sig .tc := ⟨.hbm, 106, rfl⟩
abbrev main_c_8 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_c_9 : Ref sig .tc := ⟨.hbm, 111, rfl⟩
abbrev main_v71 : Ref sig .tc := ⟨.hbm, 112, rfl⟩
abbrev main_v72 : Ref sig .tc := ⟨.hbm, 113, rfl⟩
abbrev main_c_10 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_11 : Ref sig .tc := ⟨.hbm, 120, rfl⟩
abbrev main_call4_v0 : Ref sig .tc := ⟨.hbm, 121, rfl⟩
abbrev main_call4_v1 : Ref sig .tc := ⟨.hbm, 122, rfl⟩
abbrev main_v78 : Ref sig .tc := ⟨.hbm, 123, rfl⟩
abbrev main_cst_12 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_call5_cst : Ref sig .tc := ⟨.hbm, 145, rfl⟩
abbrev main_call5_v0 : Ref sig .tc := ⟨.hbm, 146, rfl⟩
abbrev main_v99 : Ref sig .tc := ⟨.hbm, 147, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S1000000x128 : S_.BroadcastsInDim S1000000x128 (![] : Fin 0 → Fin S1000000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1000000x1_S1000000x64_0_1 : S1000000x1.BroadcastsInDim S1000000x64 (![0, 1] : Fin 2 → Fin S1000000x64.rank)
  bcast_S_S1000000x64 : S_.BroadcastsInDim S1000000x64 (![] : Fin 0 → Fin S1000000x64.rank)
  transposes_S64x64_S64x64_1_0 : S64x64.Transposes [1, 0] S64x64
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
import proofs.«139314_j24610162606552_1_alg».proof.Proof.Gen.KernelIdeal.Frame

/-!
# The idealized kernel's run, with its result named

Every weakly fair execution of the program terminates without a fault; at the end the result buffer holds what the
fold of buffer contents through the program's twelve segments (host stretch, host stretch, host stretch, region —
three times) leaves in it, and every argument array is as launched.
-/

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the twelve segments; the last thread state holds every unscoped buffer at the final
    contents of the fold, which is read off for the result buffer and for each argument. -/
theorem run_value : θ_run defs (onTc (τ := τ) (main (F := F))) ⟨m, fun _ => 0, ρ⟩ (fun r => ∀ c : Dev nD,
      r.2.mem ((c.tc : Thread nD τ).loc main_v66) = W12 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v66 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c)⟩)

end Cert.KernelIdeal.Val

end
-- ==== Proof.Spec.lean ====
import proofs.«139314_j24610162606552_1_alg».proof.Proof.Gen.ReferenceIdeal

/-!
# The three-layer network both programs compute

A graph of 100000 nodes and 1000000 typed edges. Each of three layers first aggregates, over the edges of ONE
relation, the destination node's feature row into the source node (`agg128`, `agg64`), and then maps every node to
`relu (agg · Wlᵀ + bl + h · W0ᵀ + b0 + h · W1ᵀ + b1)` (`layer128`, `layer64`). The first layer reads 128 features, the
other two 64; relation 0, 1, 2 in turn. `net3` is the third layer's output.
-/

noncomputable section

namespace Cert.Net

open Idealize.ShloMosaic Cert.ReferenceIdeal Cert.ReferenceIdeal.Facts₀ Cert.ReferenceIdeal.Facts

variable {F : FTy → Type} [FloatOps F]

/-- The aggregation both programs share, on 128 features: every edge of the given relation carries the feature row of its
    destination node (a negative destination counted from the end, then clamped into the node range) to its source
    node, where the rows arriving are added up; edges of another relation carry a zero row, and a source outside the
    node range is dropped. -/
def agg128 (h : FVec F S100000x128 .f32) (a1 : (⟨S2x1000000, .i32⟩ : BufTy).Contents (Elt F)) (a2 : (⟨S1000000, .i32⟩ : BufTy).Contents (Elt F)) (rel : BitVec 32) : FVec F S100000x128 .f32 :=
  Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (shapeCast _ (extractStridedSlice S1x1000000 ![0, 0] a1 slices_S2x1000000_S1x1000000_0_0) shapeCasts_S1x1000000_S1000000)) (select (broadcastInDim S1000000x128 ![0, 1] bcast_S1000000x1_S1000000x128_0_1 (broadcastInDim S1000000x1 ![0] bcast_S1000000_S1000000x1_0 (cmpi .eq a2 (broadcastInDim S1000000 ![] bcast_S_S1000000 (constantI S_ 32 rel))))) (Host.gather gather_S100000x128_S1000000x1_S1000000x128_1_0_n_n_0_1_1128 h (broadcastInDim S1000000x1 ![0] bcast_S1000000_S1000000x1_0 (select (cmpi .slt (shapeCast _ (extractStridedSlice S1x1000000 ![1, 0] a1 slices_S2x1000000_S1x1000000_1_0) shapeCasts_S1x1000000_S1000000) (broadcastInDim S1000000 ![] bcast_S_S1000000 (constantI S_ 32 0#32))) (addi (shapeCast _ (extractStridedSlice S1x1000000 ![1, 0] a1 slices_S2x1000000_S1x1000000_1_0) shapeCasts_S1x1000000_S1000000) (broadcastInDim S1000000 ![] bcast_S_S1000000 (constantI S_ 32 100000#32))) (shapeCast _ (extractStridedSlice S1x1000000 ![1, 0] a1 slices_S2x1000000_S1x1000000_1_0) shapeCasts_S1x1000000_S1000000)))) (broadcastInDim S1000000x128 ![] bcast_S_S1000000x128 (constant S_ .f32 0x00000000#32)))

/-- The aggregation both programs share, on 64 features: every edge of the given relation carries the feature row of its
    destination node (a negative destination counted from the end, then clamped into the node range) to its source
    node, where the rows arriving are added up; edges of another relation carry a zero row, and a source outside the
    node range is dropped. -/
def agg64 (h : FVec F S100000x64 .f32) (a1 : (⟨S2x1000000, .i32⟩ : BufTy).Contents (Elt F)) (a2 : (⟨S1000000, .i32⟩ : BufTy).Contents (Elt F)) (rel : BitVec 32) : FVec F S100000x64 .f32 :=
  Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] a1 slices_S2x1000000_S1x1000000_0_0) shapeCasts_S1x1000000_S1000000)) (select (broadcastInDim S1000000x64 ![0, 1] bcast_S1000000x1_S1000000x64_0_1 (broadcastInDim S1000000x1 ![0] bcast_S1000000_S1000000x1_0 (cmpi .eq a2 (broadcastInDim S1000000 ![] bcast_S_S1000000 (constantI S_ 32 rel))))) (Host.gather gather_S100000x64_S1000000x1_S1000000x64_1_0_n_n_0_1_164 h (broadcastInDim S1000000x1 ![0] bcast_S1000000_S1000000x1_0 (select (cmpi .slt (shapeCast _ (extractStridedSlice S1x1000000 ![1, 0] a1 slices_S2x1000000_S1x1000000_1_0) shapeCasts_S1x1000000_S1000000) (broadcastInDim S1000000 ![] bcast_S_S1000000 (constantI S_ 32 0#32))) (addi (shapeCast _ (extractStridedSlice S1x1000000 ![1, 0] a1 slices_S2x1000000_S1x1000000_1_0) shapeCasts_S1x1000000_S1000000) (broadcastInDim S1000000 ![] bcast_S_S1000000 (constantI S_ 32 100000#32))) (shapeCast _ (extractStridedSlice S1x1000000 ![1, 0] a1 slices_S2x1000000_S1x1000000_1_0) shapeCasts_S1x1000000_S1000000)))) (broadcastInDim S1000000x64 ![] bcast_S_S1000000x64 (constant S_ .f32 0x00000000#32)))

/-- One layer as the reference writes it, from 128 input features to 64: the aggregated rows through the first weight
    matrix, plus its bias, plus the node's own row through the second matrix, plus its bias, plus the node's own row
    through the third matrix, plus its bias — added in this order — and then the positive part. -/
def layer128 (h agg : FVec F S100000x128 .f32) (wl : FVec F S64x128 .f32) (bl : FVec F S64 .f32) (w0 : FVec F S64x128 .f32) (b0 : FVec F S64 .f32) (w1 : FVec F S64x128 .f32) (b1 : FVec F S64 .f32) : FVec F S100000x64 .f32 :=
  maximumf (addf (addf (addf (addf (addf (Host.dotGeneral dot_S100000x128_S128x64_S100000x64_1_0_0_1_n_n none agg (transpose S128x64 [1, 0] wl transposes_S64x128_S128x64_1_0)) (broadcastInDim S100000x64 ![0, 1] bcast_S1x64_S100000x64_0_1 (broadcastInDim S1x64 ![1] bcast_S64_S1x64_1 bl))) (Host.dotGeneral dot_S100000x128_S128x64_S100000x64_1_0_0_1_n_n none h (transpose S128x64 [1, 0] w0 transposes_S64x128_S128x64_1_0))) (broadcastInDim S100000x64 ![0, 1] bcast_S1x64_S100000x64_0_1 (broadcastInDim S1x64 ![1] bcast_S64_S1x64_1 b0))) (Host.dotGeneral dot_S100000x128_S128x64_S100000x64_1_0_0_1_n_n none h (transpose S128x64 [1, 0] w1 transposes_S64x128_S128x64_1_0))) (broadcastInDim S100000x64 ![0, 1] bcast_S1x64_S100000x64_0_1 (broadcastInDim S1x64 ![1] bcast_S64_S1x64_1 b1))) (broadcastInDim S100000x64 ![] bcast_S_S100000x64 (constant S_ .f32 0x00000000#32))

/-- One layer as the reference writes it, from 64 input features to 64: the aggregated rows through the first weight
    matrix, plus its bias, plus the node's own row through the second matrix, plus its bias, plus the node's own row
    through the third matrix, plus its bias — added in this order — and then the positive part. -/
def layer64 (h agg : FVec F S100000x64 .f32) (wl : FVec F S64x64 .f32) (bl : FVec F S64 .f32) (w0 : FVec F S64x64 .f32) (b0 : FVec F S64 .f32) (w1 : FVec F S64x64 .f32) (b1 : FVec F S64 .f32) : FVec F S100000x64 .f32 :=
  maximumf (addf (addf (addf (addf (addf (Host.dotGeneral dot_S100000x64_S64x64_S100000x64_1_0_0_1_n_n none agg (transpose S64x64 [1, 0] wl transposes_S64x64_S64x64_1_0)) (broadcastInDim S100000x64 ![0, 1] bcast_S1x64_S100000x64_0_1 (broadcastInDim S1x64 ![1] bcast_S64_S1x64_1 bl))) (Host.dotGeneral dot_S100000x64_S64x64_S100000x64_1_0_0_1_n_n none h (transpose S64x64 [1, 0] w0 transposes_S64x64_S64x64_1_0))) (broadcastInDim S100000x64 ![0, 1] bcast_S1x64_S100000x64_0_1 (broadcastInDim S1x64 ![1] bcast_S64_S1x64_1 b0))) (Host.dotGeneral dot_S100000x64_S64x64_S100000x64_1_0_0_1_n_n none h (transpose S64x64 [1, 0] w1 transposes_S64x64_S64x64_1_0))) (broadcastInDim S100000x64 ![0, 1] bcast_S1x64_S100000x64_0_1 (broadcastInDim S1x64 ![1] bcast_S64_S1x64_1 b1))) (broadcastInDim S100000x64 ![] bcast_S_S100000x64 (constant S_ .f32 0x00000000#32))

/-- The first layer's output: relation 0 over the input features. -/
def net1 (x : FVec F S100000x128 .f32) (a1 : (⟨S2x1000000, .i32⟩ : BufTy).Contents (Elt F)) (a2 : (⟨S1000000, .i32⟩ : BufTy).Contents (Elt F))
    (wl0 : FVec F S64x128 .f32) (bl0 : FVec F S64 .f32) (w00 : FVec F S64x128 .f32) (b00 : FVec F S64 .f32) (w10 : FVec F S64x128 .f32) (b10 : FVec F S64 .f32) : FVec F S100000x64 .f32 :=
  layer128 x (agg128 x a1 a2 0#32) wl0 bl0 w00 b00 w10 b10

/-- One of the two later layers over the features `h` a layer before it produced: relation `rel`. -/
def step64 (h : FVec F S100000x64 .f32) (a1 : (⟨S2x1000000, .i32⟩ : BufTy).Contents (Elt F)) (a2 : (⟨S1000000, .i32⟩ : BufTy).Contents (Elt F)) (rel : BitVec 32)
    (wl : FVec F S64x64 .f32) (bl : FVec F S64 .f32) (w0 : FVec F S64x64 .f32) (b0 : FVec F S64 .f32) (w1 : FVec F S64x64 .f32) (b1 : FVec F S64 .f32) : FVec F S100000x64 .f32 :=
  layer64 h (agg64 h a1 a2 rel) wl bl w0 b0 w1 b1

end Cert.Net

end
-- ==== Proof.KSpec.lean ====
import proofs.«139314_j24610162606552_1_alg».proof.Proof.Gen.KernelIdeal
import proofs.«139314_j24610162606552_1_alg».proof.Proof.Spec
import Idealize.ShloMosaic.Lib.ValueIdx

/-!
# One layer as the kernel computes it

The kernel's program lays the aggregated rows and the node's own rows side by side (`z`, twice as wide), lays the
first weight matrix beside the SUM of the other two (`w`), adds the three biases into one row (`b`), and a
TensorCore region computes `relu (z · wᵀ + b)` block of rows by block of rows: entry (p, q) is the positive part of
the sum over k of z(p, k) · w(q, k), plus b(0, q) (`linRelu`).
-/

noncomputable section

namespace Cert.Net

open Idealize.ShloMosaic Idealize.ShloMosaic.ValueIdx

/-- Entry (p, q) of `relu (z · wᵀ + b)` on the extended reals. -/
def linReluAt {n K H : ℕ} (z : (⟨2, ![n, K]⟩ : Shape).Idx → EReal) (w : (⟨2, ![H, K]⟩ : Shape).Idx → EReal)
    (b : (⟨2, ![1, H]⟩ : Shape).Idx → EReal) (p : Fin n) (q : Fin H) : EReal :=
  max ((∑ k : Fin K, z (ix2 p k) * w (ix2 q k)) + b (ix2 0 q)) 0

/-- `relu (z · wᵀ + b)` as one array of n rows of H. -/
def linRelu (n K H : ℕ) (z : (⟨2, ![n, K]⟩ : Shape).Idx → EReal) (w : (⟨2, ![H, K]⟩ : Shape).Idx → EReal)
    (b : (⟨2, ![1, H]⟩ : Shape).Idx → EReal) : (⟨2, ![n, H]⟩ : Shape).Idx → EReal :=
  fun i => linReluAt z w b ⟨(i 0).val, (i 0).isLt⟩ ⟨(i 1).val, (i 1).isLt⟩

theorem linRelu_ix2 {n K H : ℕ} (z : (⟨2, ![n, K]⟩ : Shape).Idx → EReal) (w : (⟨2, ![H, K]⟩ : Shape).Idx → EReal)
    (b : (⟨2, ![1, H]⟩ : Shape).Idx → EReal) (p : Fin n) (q : Fin H) :
    linRelu n K H z w b (ix2 p q) = linReluAt z w b p q := rfl

open Cert.KernelIdeal Cert.KernelIdeal.Facts₀ Cert.KernelIdeal.Facts in
/-- The first layer as the kernel's program computes it: the aggregated and the own rows side by side (256 wide)
    against `[Wl | W0 + W1]`, with the bias row `bl + (b0 + b1)`. -/
def kstep128 (x : FVec Ideal S100000x128 .f32) (a1 : (⟨S2x1000000, .i32⟩ : BufTy).Contents (Elt Ideal)) (a2 : (⟨S1000000, .i32⟩ : BufTy).Contents (Elt Ideal))
    (wl : FVec Ideal S64x128 .f32) (bl : FVec Ideal S64 .f32) (w0 : FVec Ideal S64x128 .f32) (b0 : FVec Ideal S64 .f32) (w1 : FVec Ideal S64x128 .f32) (b1 : FVec Ideal S64 .f32) : FVec Ideal S100000x64 .f32 :=
  linRelu 100000 256 64
    (concatenate S100000x256 1 [⟨S100000x128, agg128 x a1 a2 0#32⟩, ⟨S100000x128, x⟩] concatenates_S100000x128_S100000x128_S100000x256_d1)
    (concatenate S64x256 1 [⟨S64x128, wl⟩, ⟨S64x128, addf w0 w1⟩] concatenates_S64x128_S64x128_S64x256_d1)
    (shapeCast _ (addf bl (addf b0 b1)) shapeCasts_S64_S1x64)

open Cert.KernelIdeal Cert.KernelIdeal.Facts₀ Cert.KernelIdeal.Facts in
/-- One of the two later layers as the kernel's program computes it (128 wide side by side). -/
def kstep64 (h : FVec Ideal S100000x64 .f32) (a1 : (⟨S2x1000000, .i32⟩ : BufTy).Contents (Elt Ideal)) (a2 : (⟨S1000000, .i32⟩ : BufTy).Contents (Elt Ideal)) (rel : BitVec 32)
    (wl : FVec Ideal S64x64 .f32) (bl : FVec Ideal S64 .f32) (w0 : FVec Ideal S64x64 .f32) (b0 : FVec Ideal S64 .f32) (w1 : FVec Ideal S64x64 .f32) (b1 : FVec Ideal S64 .f32) : FVec Ideal S100000x64 .f32 :=
  linRelu 100000 128 64
    (concatenate S100000x128 1 [⟨S100000x64, agg64 h a1 a2 rel⟩, ⟨S100000x64, h⟩] concatenates_S100000x64_S100000x64_S100000x128_d1)
    (concatenate S64x128 1 [⟨S64x64, wl⟩, ⟨S64x64, addf w0 w1⟩] concatenates_S64x64_S64x64_S64x128_d1)
    (shapeCast _ (addf bl (addf b0 b1)) shapeCasts_S64_S1x64)

end Cert.Net

end
-- ==== Proof.Region0.lean ====
import proofs.«139314_j24610162606552_1_alg».proof.Proof.Gen.KernelIdeal.Frame
import proofs.«139314_j24610162606552_1_alg».proof.Proof.KSpec
import Idealize.ShloMosaic.Lib.Pipeline.Value
import Idealize.ShloMosaic.Lib.ValueIdx
import Idealize.ShloMosaic.PureOps.Ideal.Laws

/-!
# Region 0: the array its output window leaves is `relu (z · wᵀ + b)`

The region walks 20 blocks of 5000 rows. At each block the body multiplies the block of `z` (5000 × 256) by the
transposed whole of `w` (64 × 256), adds the bias row `b` to every row, takes the positive part and stores the
5000 × 64 result, which is written back to rows 5000·t … 5000·t + 4999 of the output array. So entry (p, q) of the
output array is the positive part of the sum over k of z(p, k) · w(q, k), plus b(0, q): `Cert.Net.linRelu`.
-/

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-! ## The matrix product's operand indices -/

theorem lhs_0 (i : S5000x64.Idx) (k : dot_S5000x256_S256x64_S5000x64_1_0_0_1_n_n.contr.Idx) : (dot_S5000x256_S256x64_S5000x64_1_0_0_1_n_n.lhsIdx i k 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_1 (i : S5000x64.Idx) (k : dot_S5000x256_S256x64_S5000x64_1_0_0_1_n_n.contr.Idx) : (dot_S5000x256_S256x64_S5000x64_1_0_0_1_n_n.lhsIdx i k 1).val = (k ⟨0, by decide⟩).val :=
  dot_S5000x256_S256x64_S5000x64_1_0_0_1_n_n.lhsIdx_val_of_single rfl i k
theorem rhs_0 (i : S5000x64.Idx) (k : dot_S5000x256_S256x64_S5000x64_1_0_0_1_n_n.contr.Idx) : (dot_S5000x256_S256x64_S5000x64_1_0_0_1_n_n.rhsIdx i k 0).val = (k ⟨0, by decide⟩).val :=
  dot_S5000x256_S256x64_S5000x64_1_0_0_1_n_n.rhsIdx_val_of_single rfl i k
theorem rhs_1 (i : S5000x64.Idx) (k : dot_S5000x256_S256x64_S5000x64_1_0_0_1_n_n.contr.Idx) : (dot_S5000x256_S256x64_S5000x64_1_0_0_1_n_n.rhsIdx i k 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-! ## The body's value at an entry of the block -/

/-- Entry (p, q) of what the body stores: the positive part of row p of the `z` block against row q of `w`, plus
    the bias at q. The format changes to bf16 are the identity on the extended reals. -/
theorem pay_apply (x0 : Vec Ideal S5000x256 .f32) (x1 : Vec Ideal S64x256 .f32) (x2 : Vec Ideal S1x64 .f32) (p : Fin 5000) (q : Fin 64) :
    k0_pay1 x0 x1 x2 (ix2 p q) = Cert.Net.linReluAt (n := 5000) (K := 256) (H := 64) x0 x1 x2 p q := by
  unfold k0_pay1 Cert.Net.linReluAt
  simp only [maximumf, addf, broadcast, Ideal.maximumf_def, Ideal.addf_def, Ideal.matmul_constant_zero_apply]
  rw [shapeCast_self, shapeCast_self, shapeCast_self, Ideal.ofBits_def, Ideal.ofBits_zero_f32,
    ← Equiv.sum_comp (contrEquiv1 dot_S5000x256_S256x64_S5000x64_1_0_0_1_n_n 256 rfl rfl).symm]
  have hb : broadcastTo S5000x64 x2 broadcasts_S1x64_S5000x64 (ix2 p q) = x2 (ix2 0 q) :=
    broadcastTo_apply x2 broadcasts_S1x64_S5000x64 (ix2 p q) (ix2 0 q) (fun a => match a with
      | ⟨0, _⟩ => by show (0 : Nat) = if (1 : Nat) = 1 then 0 else p.val; rw [if_pos rfl]
      | ⟨1, _⟩ => by show q.val = if (64 : Nat) = 1 then 0 else q.val; rw [if_neg (by decide)])
  rw [hb]
  refine congrArg (fun s => max (s + x2 (ix2 0 q)) 0) (Finset.sum_congr rfl fun k _ => ?_)
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k :=
    funext fun a => Fin.ext (by
      match a with
      | ⟨0, _⟩ => exact lhs_0 _ _
      | ⟨1, _⟩ => exact (lhs_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q :=
    funext fun a => Fin.ext (by
      match a with
      | ⟨0, _⟩ => exact (rhs_0 _ _).trans hk
      | ⟨1, _⟩ => exact rhs_1 _ _)
  rw [el, er]
  rw [transpose_apply [1, 0] _ transposes_S64x256_p1_0_S256x64 (ix2 k q) (ix2 q k) (fun b => match b with
      | ⟨0, _⟩ => rfl
      | ⟨1, _⟩ => rfl)]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the `z` window and the output window are at block row `t`, the weight and the bias
    windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The `z` block at point t, entry (p, k), is the array's entry (5000·t + p, k). -/
theorem read_z (c : Dev nD) (t : Fin cfg0.N) (p : Fin 5000) (k : Fin 256) (hp : t.val * 5000 + p.val < 100000) :
    iblk0 V c 0 t (ix2 p k) = V c main_v20 (ix2 ⟨t.val * 5000 + p.val, hp⟩ k) := by
  obtain ⟨e0, e1, -⟩ := idx_facts t
  show V c main_v20 (((cfg0.win 0).blk t).view.emb (ix2 p k)) = _
  refine congrArg (V c main_v20) (funext fun a => Fin.ext ?_)
  match a with
  | ⟨0, _⟩ => show win0_0.index t (0 : Fin 2) * 5000 + 1 * p.val = t.val * 5000 + p.val; omega
  | ⟨1, _⟩ => show win0_0.index t (1 : Fin 2) * 256 + 1 * k.val = k.val; omega

/-- The weight block at every point is the whole weight array. -/
theorem read_w (c : Dev nD) (t : Fin cfg0.N) (q : Fin 64) (k : Fin 256) :
    iblk0 V c 1 t (ix2 q k) = V c main_v21 (ix2 q k) := by
  obtain ⟨-, -, e2, e3, -⟩ := idx_facts t
  show V c main_v21 (((cfg0.win 1).blk t).view.emb (ix2 q k)) = _
  refine congrArg (V c main_v21) (funext fun a => Fin.ext ?_)
  match a with
  | ⟨0, _⟩ => show win0_1.index t (0 : Fin 2) * 64 + 1 * q.val = q.val; omega
  | ⟨1, _⟩ => show win0_1.index t (1 : Fin 2) * 256 + 1 * k.val = k.val; omega

/-- The bias block at every point is the whole bias row. -/
theorem read_b (c : Dev nD) (t : Fin cfg0.N) (q : Fin 64) :
    iblk0 V c 2 t (ix2 0 q) = V c main_v23 (ix2 0 q) := by
  obtain ⟨-, -, -, -, e4, e5, -⟩ := idx_facts t
  show V c main_v23 (((cfg0.win 2).blk t).view.emb (ix2 0 q)) = _
  refine congrArg (V c main_v23) (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- What point t writes back is block t of `relu (z · wᵀ + b)` of the arrays as the region finds them. -/
theorem flushed_eq (c : Dev nD) (t : Fin cfg0.N) :
    (dat0 V c).flushed 3 t = ((cfg0.win 3).blk t).view.read (Elt Ideal)
      (Cert.Net.linRelu 100000 256 64 (V c main_v20) (V c main_v21) (V c main_v23)) := by
  show (cfg0.win 3).cut (grid0.coords t) ((dat0 V c).after 3 t) = _
  rw [after0_3]
  unfold out0_3
  rw [View.canon_unit_zero hz]
  simp only [View.ld_unit_zero (S := S5000x256) hz, View.ld_unit_zero (S := S64x256) hz, View.ld_unit_zero (S := S1x64) hz]
  have hN : t.val < 20 := by have h := t.isLt; have e : cfg0.N = 20 := N_0; omega
  obtain ⟨-, -, -, -, -, -, e6, e7⟩ := idx_facts t
  funext j
  obtain ⟨p, q, rfl⟩ : ∃ (p : Fin 5000) (q : Fin 64), j = ix2 p q := ⟨j 0, j 1, eq_ix2 j⟩
  have hp : t.val * 5000 + p.val < 100000 := by have := p.isLt; omega
  have hemb : ((cfg0.win 3).blk t).view.emb (ix2 p q) = ix2 (⟨t.val * 5000 + p.val, hp⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show k0_pay1 (iblk0 V c 0 t) (iblk0 V c 1 t) (iblk0 V c 2 t) (ix2 p q)
    = Cert.Net.linRelu 100000 256 64 (V c main_v20) (V c main_v21) (V c main_v23) (((cfg0.win 3).blk t).view.emb (ix2 p q))
  rw [hemb, Cert.Net.linRelu_ix2]
  refine (pay_apply _ _ _ p q).trans ?_
  unfold Cert.Net.linReluAt
  rw [read_b V c t q]
  refine congrArg (fun s => max (s + V c main_v23 (ix2 0 q)) 0) (Finset.sum_congr rfl fun k _ => ?_)
  rw [read_z V c t p k hp, read_w V c t q k]

/-- An index of the output array is in point t's block iff each coordinate is in the block's range. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v24).slice (win0_3.rect t)).set ↔ _
  rw [View.set_slice_whole, Rect.mem_set_unit]
  exact Iff.rfl

/-- Row r of the output array lies in the block of point r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < cfg0.N := by rw [show cfg0.N = 20 from N_0]; omega
  obtain ⟨-, -, -, -, -, -, e6, e7⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e7]
    omega

/-- The output array after the region: `relu (z · wᵀ + b)` of the arrays as the region finds them. -/
theorem final (c : Dev nD) :
    (dat0 V c).arrAt 3 cfg0.N = Cert.Net.linRelu 100000 256 64 (V c main_v20) (V c main_v21) (V c main_v23) :=
  (dat0 V c).arrAt_eq_of_cover 3 _ (fun t _ => flushed_eq V c t) (fun i => cover i)

end Cert.KernelIdeal.Region0

end
-- ==== Proof.Region1.lean ====
import proofs.«139314_j24610162606552_1_alg».proof.Proof.Gen.KernelIdeal.Frame
import proofs.«139314_j24610162606552_1_alg».proof.Proof.KSpec
import Idealize.ShloMosaic.Lib.Pipeline.Value
import Idealize.ShloMosaic.Lib.ValueIdx
import Idealize.ShloMosaic.PureOps.Ideal.Laws

/-!
# Region 1: the array its output window leaves is `relu (z · wᵀ + b)`

The region walks 20 blocks of 5000 rows. At each block the body multiplies the block of `z` (5000 × 128) by the
transposed whole of `w` (64 × 128), adds the bias row `b` to every row, takes the positive part and stores the
5000 × 64 result, which is written back to rows 5000·t … 5000·t + 4999 of the output array. So entry (p, q) of the
output array is the positive part of the sum over k of z(p, k) · w(q, k), plus b(0, q): `Cert.Net.linRelu`.
-/

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-! ## The matrix product's operand indices -/

theorem lhs_0 (i : S5000x64.Idx) (k : dot_S5000x128_S128x64_S5000x64_1_0_0_1_n_n.contr.Idx) : (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (k : dot_S5000x128_S128x64_S5000x64_1_0_0_1_n_n.contr.Idx) : (dot_S5000x128_S128x64_S5000x64_1_0_0_1_n_n.lhsIdx i k 1).val = (k ⟨0, by decide⟩).val :=
  dot_S5000x128_S128x64_S5000x64_1_0_0_1_n_n.lhsIdx_val_of_single rfl i k
theorem rhs_0 (i : S5000x64.Idx) (k : dot_S5000x128_S128x64_S5000x64_1_0_0_1_n_n.contr.Idx) : (dot_S5000x128_S128x64_S5000x64_1_0_0_1_n_n.rhsIdx i k 0).val = (k ⟨0, by decide⟩).val :=
  dot_S5000x128_S128x64_S5000x64_1_0_0_1_n_n.rhsIdx_val_of_single rfl i k
theorem rhs_1 (i : S5000x64.Idx) (k : dot_S5000x128_S128x64_S5000x64_1_0_0_1_n_n.contr.Idx) : (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The body's value at an entry of the block -/

/-- Entry (p, q) of what the body stores: the positive part of row p of the `z` block against row q of `w`, plus
    the bias at q. The format changes to bf16 are the identity on the extended reals. -/
theorem pay_apply (x0 : Vec Ideal S5000x128 .f32) (x1 : Vec Ideal S64x128 .f32) (x2 : Vec Ideal S1x64 .f32) (p : Fin 5000) (q : Fin 64) :
    k1_pay1 x0 x1 x2 (ix2 p q) = Cert.Net.linReluAt (n := 5000) (K := 128) (H := 64) x0 x1 x2 p q := by
  unfold k1_pay1 Cert.Net.linReluAt
  simp only [maximumf, addf, broadcast, Ideal.maximumf_def, Ideal.addf_def, Ideal.matmul_constant_zero_apply]
  rw [shapeCast_self, shapeCast_self, shapeCast_self, Ideal.ofBits_def, Ideal.ofBits_zero_f32,
    ← Equiv.sum_comp (contrEquiv1 dot_S5000x128_S128x64_S5000x64_1_0_0_1_n_n 128 rfl rfl).symm]
  have hb : broadcastTo S5000x64 x2 broadcasts_S1x64_S5000x64 (ix2 p q) = x2 (ix2 0 q) :=
    broadcastTo_apply x2 broadcasts_S1x64_S5000x64 (ix2 p q) (ix2 0 q) (fun a => match a with
      | ⟨0, _⟩ => by show (0 : Nat) = if (1 : Nat) = 1 then 0 else p.val; rw [if_pos rfl]
      | ⟨1, _⟩ => by show q.val = if (64 : Nat) = 1 then 0 else q.val; rw [if_neg (by decide)])
  rw [hb]
  refine congrArg (fun s => max (s + x2 (ix2 0 q)) 0) (Finset.sum_congr rfl fun k _ => ?_)
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (rhs_0 _ _).trans hk
      | ⟨1, _⟩ => exact rhs_1 _ _)
  rw [el, er]
  rw [transpose_apply [1, 0] _ transposes_S64x128_p1_0_S128x64 (ix2 k q) (ix2 q k) (fun b => match b with
      | ⟨0, _⟩ => rfl
      | ⟨1, _⟩ => rfl)]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the `z` window and the output window are at block row `t`, the weight and the bias
    windows stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The `z` block at point t, entry (p, k), is the array's entry (5000·t + p, k). -/
theorem read_z (c : Dev nD) (t : Fin cfg1.N) (p : Fin 5000) (k : Fin 128) (hp : t.val * 5000 + p.val < 100000) :
    iblk1 V c 0 t (ix2 p k) = V c main_v41 (ix2 ⟨t.val * 5000 + p.val, hp⟩ k) := by
  obtain ⟨e0, e1, -⟩ := idx_facts t
  show V c main_v41 (((cfg1.win 0).blk t).view.emb (ix2 p k)) = _
  refine congrArg (V c main_v41) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The weight block at every point is the whole weight array. -/
theorem read_w (c : Dev nD) (t : Fin cfg1.N) (q : Fin 64) (k : Fin 128) :
    iblk1 V c 1 t (ix2 q k) = V c main_v42 (ix2 q k) := by
  obtain ⟨-, -, e2, e3, -⟩ := idx_facts t
  show V c main_v42 (((cfg1.win 1).blk t).view.emb (ix2 q k)) = _
  refine congrArg (V c main_v42) (funext fun a => Fin.ext ?_)
  match a with
  | ⟨0, _⟩ => show win1_1.index t (0 : Fin 2) * 64 + 1 * q.val = q.val; omega
  | ⟨1, _⟩ => show win1_1.index t (1 : Fin 2) * 128 + 1 * k.val = k.val; omega

/-- The bias block at every point is the whole bias row. -/
theorem read_b (c : Dev nD) (t : Fin cfg1.N) (q : Fin 64) :
    iblk1 V c 2 t (ix2 0 q) = V c main_v44 (ix2 0 q) := by
  obtain ⟨-, -, -, -, e4, e5, -⟩ := idx_facts t
  show V c main_v44 (((cfg1.win 2).blk t).view.emb (ix2 0 q)) = _
  refine congrArg (V c main_v44) (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-- What point t writes back is block t of `relu (z · wᵀ + b)` of the arrays as the region finds them. -/
theorem flushed_eq (c : Dev nD) (t : Fin cfg1.N) :
    (dat1 V c).flushed 3 t = ((cfg1.win 3).blk t).view.read (Elt Ideal)
      (Cert.Net.linRelu 100000 128 64 (V c main_v41) (V c main_v42) (V c main_v44)) := by
  show (cfg1.win 3).cut (grid1.coords t) ((dat1 V c).after 3 t) = _
  rw [after1_3]
  unfold out1_3
  rw [View.canon_unit_zero hz]
  simp only [View.ld_unit_zero (S := S5000x128) hz, View.ld_unit_zero (S := S64x128) hz, View.ld_unit_zero (S := S1x64) hz]
  have hN : t.val < 20 := by have h := t.isLt; have e : cfg1.N = 20 := N_1; omega
  obtain ⟨-, -, -, -, -, -, e6, e7⟩ := idx_facts t
  funext j
  obtain ⟨p, q, rfl⟩ : ∃ (p : Fin 5000) (q : Fin 64), j = ix2 p q := ⟨j 0, j 1, eq_ix2 j⟩
  have hp : t.val * 5000 + p.val < 100000 := by have := p.isLt; omega
  have hemb : ((cfg1.win 3).blk t).view.emb (ix2 p q) = ix2 (⟨t.val * 5000 + p.val, hp⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  show k1_pay1 (iblk1 V c 0 t) (iblk1 V c 1 t) (iblk1 V c 2 t) (ix2 p q)
    = Cert.Net.linRelu 100000 128 64 (V c main_v41) (V c main_v42) (V c main_v44) (((cfg1.win 3).blk t).view.emb (ix2 p q))
  rw [hemb, Cert.Net.linRelu_ix2]
  refine (pay_apply _ _ _ p q).trans ?_
  unfold Cert.Net.linReluAt
  rw [read_b V c t q]
  refine congrArg (fun s => max (s + V c main_v44 (ix2 0 q)) 0) (Finset.sum_congr rfl fun k _ => ?_)
  rw [read_z V c t p k hp, read_w V c t q k]

/-- An index of the output array is in point t's block iff each coordinate is in the block's range. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Row r of the output array lies in the block of point r / 5000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 5000 < cfg1.N := by rw [show cfg1.N = 20 from N_1]; omega
  obtain ⟨-, -, -, -, -, -, e6, e7⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    rw [e7]
    omega

/-- The output array after the region: `relu (z · wᵀ + b)` of the arrays as the region finds them. -/
theorem final (c : Dev nD) :
    (dat1 V c).arrAt 3 cfg1.N = Cert.Net.linRelu 100000 128 64 (V c main_v41) (V c main_v42) (V c main_v44) :=
  (dat1 V c).arrAt_eq_of_cover 3 _ (fun t _ => flushed_eq V c t) (fun i => cover i)

end Cert.KernelIdeal.Region1

end
-- ==== Proof.Region2.lean ====
import proofs.«139314_j24610162606552_1_alg».proof.Proof.Gen.KernelIdeal.Frame
import proofs.«139314_j24610162606552_1_alg».proof.Proof.KSpec
import Idealize.ShloMosaic.Lib.Pipeline.Value
import Idealize.ShloMosaic.Lib.ValueIdx
import Idealize.ShloMosaic.PureOps.Ideal.Laws

/-!
# Region 2: the array its output window leaves is `relu (z · wᵀ + b)`

The region walks 20 blocks of 5000 rows. At each block the body multiplies the block of `z` (5000 × 128) by the
transposed whole of `w` (64 × 128), adds the bias row `b` to every row, takes the positive part and stores the
5000 × 64 result, which is written back to rows 5000·t … 5000·t + 4999 of the output array. So entry (p, q) of the
output array is the positive part of the sum over k of z(p, k) · w(q, k), plus b(0, q): `Cert.Net.linRelu`.
-/

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

/-! ## The matrix product's operand indices -/

theorem lhs_0 (i : S5000x64.Idx) (k : dot_S5000x128_S128x64_S5000x64_1_0_0_1_n_n.contr.Idx) : (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (k : dot_S5000x128_S128x64_S5000x64_1_0_0_1_n_n.contr.Idx) : (dot_S5000x128_S128x64_S5000x64_1_0_0_1_n_n.lhsIdx i k 1).val = (k ⟨0, by decide⟩).val :=
  dot_S5000x128_S128x64_S5000x64_1_0_0_1_n_n.lhsIdx_val_of_single rfl i k
theorem rhs_0 (i : S5000x64.Idx) (k : dot_S5000x128_S128x64_S5000x64_1_0_0_1_n_n.contr.Idx) : (dot_S5000x128_S128x64_S5000x64_1_0_0_1_n_n.rhsIdx i k 0).val = (k ⟨0, by decide⟩).val :=
  dot_S5000x128_S128x64_S5000x64_1_0_0_1_n_n.rhsIdx_val_of_single rfl i k
theorem rhs_1 (i : S5000x64.Idx) (k : dot_S5000x128_S128x64_S5000x64_1_0_0_1_n_n.contr.Idx) : (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The body's value at an entry of the block -/

/-- Entry (p, q) of what the body stores: the positive part of row p of the `z` block against row q of `w`, plus
    the bias at q. The format changes to bf16 are the identity on the extended reals. -/
theorem pay_apply (x0 : Vec Ideal S5000x128 .f32) (x1 : Vec Ideal S64x128 .f32) (x2 : Vec Ideal S1x64 .f32) (p : Fin 5000) (q : Fin 64) :
    k2_pay1 x0 x1 x2 (ix2 p q) = Cert.Net.linReluAt (n := 5000) (K := 128) (H := 64) x0 x1 x2 p q := by
  unfold k2_pay1 Cert.Net.linReluAt
  simp only [maximumf, addf, broadcast, Ideal.maximumf_def, Ideal.addf_def, Ideal.matmul_constant_zero_apply]
  rw [shapeCast_self, shapeCast_self, shapeCast_self, Ideal.ofBits_def, Ideal.ofBits_zero_f32,
    ← Equiv.sum_comp (contrEquiv1 dot_S5000x128_S128x64_S5000x64_1_0_0_1_n_n 128 rfl rfl).symm]
  have hb : broadcastTo S5000x64 x2 broadcasts_S1x64_S5000x64 (ix2 p q) = x2 (ix2 0 q) :=
    broadcastTo_apply x2 broadcasts_S1x64_S5000x64 (ix2 p q) (ix2 0 q) (fun a => match a with
      | ⟨0, _⟩ => by show (0 : Nat) = if (1 : Nat) = 1 then 0 else p.val; rw [if_pos rfl]
      | ⟨1, _⟩ => by show q.val = if (64 : Nat) = 1 then 0 else q.val; rw [if_neg (by decide)])
  rw [hb]
  refine congrArg (fun s => max (s + x2 (ix2 0 q)) 0) (Finset.sum_congr rfl fun k _ => ?_)
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (rhs_0 _ _).trans hk
      | ⟨1, _⟩ => exact rhs_1 _ _)
  rw [el, er]
  rw [transpose_apply [1, 0] _ transposes_S64x128_p1_0_S128x64 (ix2 k q) (ix2 q k) (fun b => match b with
      | ⟨0, _⟩ => rfl
      | ⟨1, _⟩ => rfl)]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the `z` window and the output window are at block row `t`, the weight and the bias
    windows stay at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The `z` block at point t, entry (p, k), is the array's entry (5000·t + p, k). -/
theorem read_z (c : Dev nD) (t : Fin cfg2.N) (p : Fin 5000) (k : Fin 128) (hp : t.val * 5000 + p.val < 100000) :
    iblk2 V c 0 t (ix2 p k) = V c main_v62 (ix2 ⟨t.val * 5000 + p.val, hp⟩ k) := by
  obtain ⟨e0, e1, -⟩ := idx_facts t
  show V c main_v62 (((cfg2.win 0).blk t).view.emb (ix2 p k)) = _
  refine congrArg (V c main_v62) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- The weight block at every point is the whole weight array. -/
theorem read_w (c : Dev nD) (t : Fin cfg2.N) (q : Fin 64) (k : Fin 128) :
    iblk2 V c 1 t (ix2 q k) = V c main_v63 (ix2 q k) := by
  obtain ⟨-, -, e2, e3, -⟩ := idx_facts t
  show V c main_v63 (((cfg2.win 1).blk t).view.emb (ix2 q k)) = _
  refine congrArg (V c main_v63) (funext fun a => Fin.ext ?_)
  match a with
  | ⟨0, _⟩ => show win2_1.index t (0 : Fin 2) * 64 + 1 * q.val = q.val; omega
  | ⟨1, _⟩ => show win2_1.index t (1 : Fin 2) * 128 + 1 * k.val = k.val; omega

/-- The bias block at every point is the whole bias row. -/
theorem read_b (c : Dev nD) (t : Fin cfg2.N) (q : Fin 64) :
    iblk2 V c 2 t (ix2 0 q) = V c main_v65 (ix2 0 q) := by
  obtain ⟨-, -, -, -, e4, e5, -⟩ := idx_facts t
  show V c main_v65 (((cfg2.win 2).blk t).view.emb (ix2 0 q)) = _
  refine congrArg (V c main_v65) (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- What point t writes back is block t of `relu (z · wᵀ + b)` of the arrays as the region finds them. -/
theorem flushed_eq (c : Dev nD) (t : Fin cfg2.N) :
    (dat2 V c).flushed 3 t = ((cfg2.win 3).blk t).view.read (Elt Ideal)
      (Cert.Net.linRelu 100000 128 64 (V c main_v62) (V c main_v63) (V c main_v65)) := by
  show (cfg2.win 3).cut (grid2.coords t) ((dat2 V c).after 3 t) = _
  rw [after2_3]
  unfold out2_3
  rw [View.canon_unit_zero hz]
  simp only [View.ld_unit_zero (S := S5000x128) hz, View.ld_unit_zero (S := S64x128) hz, View.ld_unit_zero (S := S1x64) hz]
  have hN : t.val < 20 := by have h := t.isLt; have e : cfg2.N = 20 := N_2; omega
  obtain ⟨-, -, -, -, -, -, e6, e7⟩ := idx_facts t
  funext j
  obtain ⟨p, q, rfl⟩ : ∃ (p : Fin 5000) (q : Fin 64), j = ix2 p q := ⟨j 0, j 1, eq_ix2 j⟩
  have hp : t.val * 5000 + p.val < 100000 := by have := p.isLt; omega
  have hemb : ((cfg2.win 3).blk t).view.emb (ix2 p q) = ix2 (⟨t.val * 5000 + p.val, hp⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 64 + 1 * q.val = q.val; omega
  show k2_pay1 (iblk2 V c 0 t) (iblk2 V c 1 t) (iblk2 V c 2 t) (ix2 p q)
    = Cert.Net.linRelu 100000 128 64 (V c main_v62) (V c main_v63) (V c main_v65) (((cfg2.win 3).blk t).view.emb (ix2 p q))
  rw [hemb, Cert.Net.linRelu_ix2]
  refine (pay_apply _ _ _ p q).trans ?_
  unfold Cert.Net.linReluAt
  rw [read_b V c t q]
  refine congrArg (fun s => max (s + V c main_v65 (ix2 0 q)) 0) (Finset.sum_congr rfl fun k _ => ?_)
  rw [read_z V c t p k hp, read_w V c t q k]

/-- An index of the output array is in point t's block iff each coordinate is in the block's range. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v66).slice (win2_3.rect t)).set ↔ _
  rw [View.set_slice_whole, Rect.mem_set_unit]
  exact Iff.rfl

/-- Row r of the output array lies in the block of point r / 5000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 5000 < cfg2.N := by rw [show cfg2.N = 20 from N_2]; omega
  obtain ⟨-, -, -, -, -, -, e6, e7⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win2_3.index ⟨(i 0).val / 5000, ht⟩ (1 : Fin 2) * 64 ≤ (i 1).val ∧ (i 1).val < win2_3.index ⟨(i 0).val / 5000, ht⟩ (1 : Fin 2) * 64 + 64
    rw [e7]
    omega

/-- The output array after the region: `relu (z · wᵀ + b)` of the arrays as the region finds them. -/
theorem final (c : Dev nD) :
    (dat2 V c).arrAt 3 cfg2.N = Cert.Net.linRelu 100000 128 64 (V c main_v62) (V c main_v63) (V c main_v65) :=
  (dat2 V c).arrAt_eq_of_cover 3 _ (fun t _ => flushed_eq V c t) (fun i => cover i)

end Cert.KernelIdeal.Region2

end
-- ==== Proof.Keep4.lean ====
import proofs.«139314_j24610162606552_1_alg».proof.Proof.Gen.KernelIdeal.Frame
import proofs.«139314_j24610162606552_1_alg».proof.Proof.KSpec
import Idealize.ShloMosaic.Lib.StableHlo.Run

/-!
# Buffers the second layer reads that nothing wrote since

At the first region's exit the source and destination word arrays still hold what the first host stretch
computed, and the second layer's weights, biases and the edge types are as launched: no later host operation and
no window of the first region writes them.
-/

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem keep4_1_main_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := StableHlo.after_of_forall_not_mem (b := Proc.devRef .tc main_v1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep4_1_main_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep4_0_main_arg2 (c : Dev nD) : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep4_0_main_arg9 (c : Dev nD) : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep4_0_main_arg10 (c : Dev nD) : W4 m ρ c (Proc.devRef .tc main_arg10) = W0 m ρ c (Proc.devRef .tc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep4_0_main_arg11 (c : Dev nD) : W4 m ρ c (Proc.devRef .tc main_arg11) = W0 m ρ c (Proc.devRef .tc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep4_0_main_arg12 (c : Dev nD) : W4 m ρ c (Proc.devRef .tc main_arg12) = W0 m ρ c (Proc.devRef .tc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep4_0_main_arg13 (c : Dev nD) : W4 m ρ c (Proc.devRef .tc main_arg13) = W0 m ρ c (Proc.devRef .tc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep4_0_main_arg14 (c : Dev nD) : W4 m ρ c (Proc.devRef .tc main_arg14) = W0 m ρ c (Proc.devRef .tc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Host

end
-- ==== Proof.Keep8.lean ====
import proofs.«139314_j24610162606552_1_alg».proof.Proof.Gen.KernelIdeal.Frame
import proofs.«139314_j24610162606552_1_alg».proof.Proof.KSpec
import Idealize.ShloMosaic.Lib.StableHlo.Run

/-!
# Buffers the third layer reads that nothing wrote since

At the second region's exit the source and destination word arrays still hold what the first host stretch
computed, and the third layer's weights, biases and the edge types are as launched: no later host operation and
no window of the first two regions writes them.
-/

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem keep8_1_main_v1 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := StableHlo.after_of_forall_not_mem (b := Proc.devRef .tc main_v1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep8_1_main_v3 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep8_0_main_arg2 (c : Dev nD) : W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep8_0_main_arg15 (c : Dev nD) : W8 m ρ c (Proc.devRef .tc main_arg15) = W0 m ρ c (Proc.devRef .tc main_arg15) :=
  calc W8 m ρ c (Proc.devRef .tc main_arg15)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := StableHlo.after_of_forall_not_mem (b := Proc.devRef .tc main_arg15) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep8_0_main_arg16 (c : Dev nD) : W8 m ρ c (Proc.devRef .tc main_arg16) = W0 m ρ c (Proc.devRef .tc main_arg16) :=
  calc W8 m ρ c (Proc.devRef .tc main_arg16)
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := StableHlo.after_of_forall_not_mem (b := Proc.devRef .tc main_arg16) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := StableHlo.after_of_forall_not_mem (b := Proc.devRef .tc main_arg16) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep8_0_main_arg17 (c : Dev nD) : W8 m ρ c (Proc.devRef .tc main_arg17) = W0 m ρ c (Proc.devRef .tc main_arg17) :=
  calc W8 m ρ c (Proc.devRef .tc main_arg17)
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := StableHlo.after_of_forall_not_mem (b := Proc.devRef .tc main_arg17) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := StableHlo.after_of_forall_not_mem (b := Proc.devRef .tc main_arg17) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep8_0_main_arg18 (c : Dev nD) : W8 m ρ c (Proc.devRef .tc main_arg18) = W0 m ρ c (Proc.devRef .tc main_arg18) :=
  calc W8 m ρ c (Proc.devRef .tc main_arg18)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := StableHlo.after_of_forall_not_mem (b := Proc.devRef .tc main_arg18) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := StableHlo.after_of_forall_not_mem (b := Proc.devRef .tc main_arg18) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep8_0_main_arg19 (c : Dev nD) : W8 m ρ c (Proc.devRef .tc main_arg19) = W0 m ρ c (Proc.devRef .tc main_arg19) :=
  calc W8 m ρ c (Proc.devRef .tc main_arg19)
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := StableHlo.after_of_forall_not_mem (b := Proc.devRef .tc main_arg19) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := StableHlo.after_of_forall_not_mem (b := Proc.devRef .tc main_arg19) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep8_0_main_arg20 (c : Dev nD) : W8 m ρ c (Proc.devRef .tc main_arg20) = W0 m ρ c (Proc.devRef .tc main_arg20) :=
  calc W8 m ρ c (Proc.devRef .tc main_arg20)
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := StableHlo.after_of_forall_not_mem (b := Proc.devRef .tc main_arg20) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := StableHlo.after_of_forall_not_mem (b := Proc.devRef .tc main_arg20) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Host

end
-- ==== Proof.KHost.lean ====
import proofs.«139314_j24610162606552_1_alg».proof.Proof.Gen.KernelIdeal.Frame
import proofs.«139314_j24610162606552_1_alg».proof.Proof.KSpec
import proofs.«139314_j24610162606552_1_alg».proof.Proof.Region0
import proofs.«139314_j24610162606552_1_alg».proof.Proof.Region1
import proofs.«139314_j24610162606552_1_alg».proof.Proof.Region2
import proofs.«139314_j24610162606552_1_alg».proof.Proof.Keep4
import proofs.«139314_j24610162606552_1_alg».proof.Proof.Keep8
import Idealize.ShloMosaic.Lib.StableHlo.Run

/-!
# The kernel's result buffer, read back through the program

The program is three times: host operations that prepare a layer's operands (`z` = aggregated rows beside the
layer's input rows, `w` = the first weight matrix beside the sum of the other two, `b` = the three biases in one
row), then a region that leaves `relu (z · wᵀ + b)` in its output array. The first layer's input is the argument
`x`; each later layer's input is the array the region before it left, and its source and destination word arrays
are the ones the very first host stretch cut out of the edge list. Reading the final contents of the result buffer
back through the twelve segments gives the third layer over the second over the first (`Cert.Net.kstep64`,
`Cert.Net.kstep128`).
-/

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- The aggregation from the source and destination word arrays already cut out of the edge list (what the second
    and the third layer's host operations read). -/
def aggw64 (h : FVec Ideal S100000x64 .f32) (src dst : (⟨S1000000, .i32⟩ : BufTy).Contents (Elt Ideal)) (a2 : (⟨S1000000, .i32⟩ : BufTy).Contents (Elt Ideal)) (rel : BitVec 32) : FVec Ideal S100000x64 .f32 :=
  Host.scatterAdd scatter_S100000x64_S1000000x1_S1000000x64_1_0_0_1 (broadcastInDim S100000x64 ![] Facts₀.bcast_S_S100000x64 (constant S_ .f32 0x00000000#32)) (broadcastInDim S1000000x1 ![0] Facts₀.bcast_S1000000_S1000000x1_0 src) (select (broadcastInDim S1000000x64 ![0, 1] Facts₀.bcast_S1000000x1_S1000000x64_0_1 (broadcastInDim S1000000x1 ![0] Facts₀.bcast_S1000000_S1000000x1_0 (cmpi .eq a2 (broadcastInDim S1000000 ![] Facts₀.bcast_S_S1000000 (constantI S_ 32 rel))))) (Host.gather gather_S100000x64_S1000000x1_S1000000x64_1_0_n_n_0_1_164 h (broadcastInDim S1000000x1 ![0] Facts₀.bcast_S1000000_S1000000x1_0 (select (cmpi .slt dst (broadcastInDim S1000000 ![] Facts₀.bcast_S_S1000000 (constantI S_ 32 0#32))) (addi dst (broadcastInDim S1000000 ![] Facts₀.bcast_S_S1000000 (constantI S_ 32 100000#32))) dst))) (broadcastInDim S1000000x64 ![] Facts₀.bcast_S_S1000000x64 (constant S_ .f32 0x00000000#32)))

/-- The shared aggregation is that one, of the two rows of the edge list. -/
theorem agg64_eq (h : FVec Ideal S100000x64 .f32) (a1 : (⟨S2x1000000, .i32⟩ : BufTy).Contents (Elt Ideal)) (a2 : (⟨S1000000, .i32⟩ : BufTy).Contents (Elt Ideal)) (rel : BitVec 32) :
    Cert.Net.agg64 (F := Ideal) h a1 a2 rel = aggw64 h (shapeCast _ (extractStridedSlice S1x1000000 ![0, 0] a1 Facts₀.slices_S2x1000000_S1x1000000_0_0) Facts₀.shapeCasts_S1x1000000_S1000000) (shapeCast _ (extractStridedSlice S1x1000000 ![1, 0] a1 Facts₀.slices_S2x1000000_S1x1000000_1_0) Facts₀.shapeCasts_S1x1000000_S1000000) a2 rel := rfl

/-- The first weight matrix beside the sum of the other two (128 input features). -/
def wcat128 (wl w0 w1 : FVec Ideal S64x128 .f32) : FVec Ideal S64x256 .f32 :=
  concatenate S64x256 1 [⟨S64x128, wl⟩, ⟨S64x128, addf w0 w1⟩] Facts₀.concatenates_S64x128_S64x128_S64x256_d1

/-- The first weight matrix beside the sum of the other two (64 input features). -/
def wcat64 (wl w0 w1 : FVec Ideal S64x64 .f32) : FVec Ideal S64x128 .f32 :=
  concatenate S64x128 1 [⟨S64x64, wl⟩, ⟨S64x64, addf w0 w1⟩] Facts₀.concatenates_S64x64_S64x64_S64x128_d1

/-- The three biases added into one row. -/
def biasRow (bl b0 b1 : FVec Ideal S64 .f32) : FVec Ideal S1x64 .f32 :=
  shapeCast _ (addf bl (addf b0 b1)) Facts₀.shapeCasts_S64_S1x64

/-! ## Each layer's operands out of its host stretches, from any contents `U` at the stretches' entry -/

set_option maxHeartbeats 4000000 in
/-- Layer 1's `z`: the aggregated rows beside the layer's input rows. -/
theorem stretch0_z (U : Valuation τ sig (Elt Ideal)) :
    StableHlo.after hostOps0_2 (StableHlo.after hostOps0_1 (StableHlo.after hostOps0 U)) (Proc.devRef .tc main_v20)
      = concatenate S100000x256 1 [⟨S100000x128, Cert.Net.agg128 (F := Ideal) (U (Proc.devRef .tc main_arg0)) (U (Proc.devRef .tc main_arg1)) (U (Proc.devRef .tc main_arg2)) 0#32⟩, ⟨S100000x128, (U (Proc.devRef .tc main_arg0))⟩] Facts₀.concatenates_S100000x128_S100000x128_S100000x256_d1 := by
  dsimp only [hostOps0, hostOps0_1, hostOps0_2]
  after_results_simp
  rfl

set_option maxHeartbeats 4000000 in
/-- Layer 1's `w`: the first weight matrix beside the sum of the other two. -/
theorem stretch0_w (U : Valuation τ sig (Elt Ideal)) :
    StableHlo.after hostOps0_2 (StableHlo.after hostOps0_1 (StableHlo.after hostOps0 U)) (Proc.devRef .tc main_v21)
      = wcat128 (U (Proc.devRef .tc main_arg3)) (U (Proc.devRef .tc main_arg5)) (U (Proc.devRef .tc main_arg7)) := by
  dsimp only [hostOps0, hostOps0_1, hostOps0_2]
  after_results_simp
  rfl

set_option maxHeartbeats 4000000 in
/-- Layer 1's `b`: the three biases added into one row. -/
theorem stretch0_b (U : Valuation τ sig (Elt Ideal)) :
    StableHlo.after hostOps0_2 (StableHlo.after hostOps0_1 (StableHlo.after hostOps0 U)) (Proc.devRef .tc main_v23)
      = biasRow (U (Proc.devRef .tc main_arg4)) (U (Proc.devRef .tc main_arg6)) (U (Proc.devRef .tc main_arg8)) := by
  dsimp only [hostOps0, hostOps0_1, hostOps0_2]
  after_results_simp
  rfl

set_option maxHeartbeats 4000000 in
/-- Layer 2's `z`: the aggregated rows beside the layer's input rows. -/
theorem stretch1_z (U : Valuation τ sig (Elt Ideal)) :
    StableHlo.after hostOps1_2 (StableHlo.after hostOps1_1 (StableHlo.after hostOps1 U)) (Proc.devRef .tc main_v41)
      = concatenate S100000x128 1 [⟨S100000x64, aggw64 (U (Proc.devRef .tc main_v24)) (U (Proc.devRef .tc main_v1)) (U (Proc.devRef .tc main_v3)) (U (Proc.devRef .tc main_arg2)) 1#32⟩, ⟨S100000x64, (U (Proc.devRef .tc main_v24))⟩] Facts₀.concatenates_S100000x64_S100000x64_S100000x128_d1 := by
  dsimp only [hostOps1, hostOps1_1, hostOps1_2]
  after_results_simp
  rfl

set_option maxHeartbeats 4000000 in
/-- Layer 2's `w`: the first weight matrix beside the sum of the other two. -/
theorem stretch1_w (U : Valuation τ sig (Elt Ideal)) :
    StableHlo.after hostOps1_2 (StableHlo.after hostOps1_1 (StableHlo.after hostOps1 U)) (Proc.devRef .tc main_v42)
      = wcat64 (U (Proc.devRef .tc main_arg9)) (U (Proc.devRef .tc main_arg11)) (U (Proc.devRef .tc main_arg13)) := by
  dsimp only [hostOps1, hostOps1_1, hostOps1_2]
  after_results_simp
  rfl

set_option maxHeartbeats 4000000 in
/-- Layer 2's `b`: the three biases added into one row. -/
theorem stretch1_b (U : Valuation τ sig (Elt Ideal)) :
    StableHlo.after hostOps1_2 (StableHlo.after hostOps1_1 (StableHlo.after hostOps1 U)) (Proc.devRef .tc main_v44)
      = biasRow (U (Proc.devRef .tc main_arg10)) (U (Proc.devRef .tc main_arg12)) (U (Proc.devRef .tc main_arg14)) := by
  dsimp only [hostOps1, hostOps1_1, hostOps1_2]
  after_results_simp
  rfl

set_option maxHeartbeats 4000000 in
/-- Layer 3's `z`: the aggregated rows beside the layer's input rows. -/
theorem stretch2_z (U : Valuation τ sig (Elt Ideal)) :
    StableHlo.after hostOps2_2 (StableHlo.after hostOps2_1 (StableHlo.after hostOps2 U)) (Proc.devRef .tc main_v62)
      = concatenate S100000x128 1 [⟨S100000x64, aggw64 (U (Proc.devRef .tc main_v45)) (U (Proc.devRef .tc main_v1)) (U (Proc.devRef .tc main_v3)) (U (Proc.devRef .tc main_arg2)) 2#32⟩, ⟨S100000x64, (U (Proc.devRef .tc main_v45))⟩] Facts₀.concatenates_S100000x64_S100000x64_S100000x128_d1 := by
  dsimp only [hostOps2, hostOps2_1, hostOps2_2]
  after_results_simp
  rfl

set_option maxHeartbeats 4000000 in
/-- Layer 3's `w`: the first weight matrix beside the sum of the other two. -/
theorem stretch2_w (U : Valuation τ sig (Elt Ideal)) :
    StableHlo.after hostOps2_2 (StableHlo.after hostOps2_1 (StableHlo.after hostOps2 U)) (Proc.devRef .tc main_v63)
      = wcat64 (U (Proc.devRef .tc main_arg15)) (U (Proc.devRef .tc main_arg17)) (U (Proc.devRef .tc main_arg19)) := by
  dsimp only [hostOps2, hostOps2_1, hostOps2_2]
  after_results_simp
  rfl

set_option maxHeartbeats 4000000 in
/-- Layer 3's `b`: the three biases added into one row. -/
theorem stretch2_b (U : Valuation τ sig (Elt Ideal)) :
    StableHlo.after hostOps2_2 (StableHlo.after hostOps2_1 (StableHlo.after hostOps2 U)) (Proc.devRef .tc main_v65)
      = biasRow (U (Proc.devRef .tc main_arg16)) (U (Proc.devRef .tc main_arg18)) (U (Proc.devRef .tc main_arg20)) := by
  dsimp only [hostOps2, hostOps2_1, hostOps2_2]
  after_results_simp
  rfl

/-! ## The word arrays the first host stretch cuts out of the edge list -/

variable (m : (ℓ : Loc nD τ sig) → Buf (Elt Ideal) ℓ) (ρ : Dev nD → PrngReg)

set_option maxHeartbeats 4000000 in
theorem W1_v1 (c : Dev nD) : W1 m ρ c (Proc.devRef .tc main_v1) = (shapeCast _ (extractStridedSlice S1x1000000 ![0, 0] (W0 m ρ c (Proc.devRef .tc main_arg1)) Facts₀.slices_S2x1000000_S1x1000000_0_0) Facts₀.shapeCasts_S1x1000000_S1000000) := by
  show StableHlo.after hostOps0 (W0 m ρ c) (Proc.devRef .tc main_v1) = _
  dsimp only [hostOps0]
  after_results_simp
  rfl

set_option maxHeartbeats 4000000 in
theorem W1_v3 (c : Dev nD) : W1 m ρ c (Proc.devRef .tc main_v3) = (shapeCast _ (extractStridedSlice S1x1000000 ![1, 0] (W0 m ρ c (Proc.devRef .tc main_arg1)) Facts₀.slices_S2x1000000_S1x1000000_1_0) Facts₀.shapeCasts_S1x1000000_S1000000) := by
  show StableHlo.after hostOps0 (W0 m ρ c) (Proc.devRef .tc main_v3) = _
  dsimp only [hostOps0]
  after_results_simp
  rfl

/-! ## The chain through the three regions -/

/-- After the first region its output array is the first layer of the arguments. -/
theorem val1 (c : Dev nD) :
    W4 m ρ c (Proc.devRef .tc main_v24) = Cert.Net.kstep128 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) := by
  refine (W4_arr m ρ c 3).trans ((Region0.final (V3 m ρ) c).trans ?_)
  unfold Cert.Net.kstep128
  exact congr (congr (congrArg (Cert.Net.linRelu 100000 256 64) (stretch0_z (W0 m ρ c))) (stretch0_w (W0 m ρ c))) (stretch0_b (W0 m ρ c))

/-- After the second region its output array is the second layer of the array the region before it left. -/
theorem val2 (c : Dev nD) :
    W8 m ρ c (Proc.devRef .tc main_v45)
      = Cert.Net.kstep64 (W4 m ρ c (Proc.devRef .tc main_v24)) (W0 m ρ c (Proc.devRef .tc main_arg1)) (W0 m ρ c (Proc.devRef .tc main_arg2)) 1#32 (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) := by
  refine (W8_arr m ρ c 3).trans ((Region1.final (V7 m ρ) c).trans ?_)
  unfold Cert.Net.kstep64
  rw [agg64_eq]
  have hz := stretch1_z (W4 m ρ c)
  rw [keep4_1_main_v1 m ρ c, keep4_1_main_v3 m ρ c, keep4_0_main_arg2 m ρ c, W1_v1 m ρ c, W1_v3 m ρ c] at hz
  have hw := stretch1_w (W4 m ρ c)
  rw [keep4_0_main_arg9 m ρ c, keep4_0_main_arg11 m ρ c, keep4_0_main_arg13 m ρ c] at hw
  have hb := stretch1_b (W4 m ρ c)
  rw [keep4_0_main_arg10 m ρ c, keep4_0_main_arg12 m ρ c, keep4_0_main_arg14 m ρ c] at hb
  exact congr (congr (congrArg (Cert.Net.linRelu 100000 128 64) hz) hw) hb

/-- After the third region its output array is the third layer of the array the region before it left. -/
theorem val3 (c : Dev nD) :
    W12 m ρ c (Proc.devRef .tc main_v66)
      = Cert.Net.kstep64 (W8 m ρ c (Proc.devRef .tc main_v45)) (W0 m ρ c (Proc.devRef .tc main_arg1)) (W0 m ρ c (Proc.devRef .tc main_arg2)) 2#32 (W0 m ρ c (Proc.devRef .tc main_arg15)) (W0 m ρ c (Proc.devRef .tc main_arg16)) (W0 m ρ c (Proc.devRef .tc main_arg17)) (W0 m ρ c (Proc.devRef .tc main_arg18)) (W0 m ρ c (Proc.devRef .tc main_arg19)) (W0 m ρ c (Proc.devRef .tc main_arg20)) := by
  refine (W12_arr m ρ c 3).trans ((Region2.final (V11 m ρ) c).trans ?_)
  unfold Cert.Net.kstep64
  rw [agg64_eq]
  have hz := stretch2_z (W8 m ρ c)
  rw [keep8_1_main_v1 m ρ c, keep8_1_main_v3 m ρ c, keep8_0_main_arg2 m ρ c, W1_v1 m ρ c, W1_v3 m ρ c] at hz
  have hw := stretch2_w (W8 m ρ c)
  rw [keep8_0_main_arg15 m ρ c, keep8_0_main_arg17 m ρ c, keep8_0_main_arg19 m ρ c] at hw
  have hb := stretch2_b (W8 m ρ c)
  rw [keep8_0_main_arg16 m ρ c, keep8_0_main_arg18 m ρ c, keep8_0_main_arg20 m ρ c] at hb
  exact congr (congr (congrArg (Cert.Net.linRelu 100000 128 64) hz) hw) hb

/-- The result buffer at the end of the fold: the kernel's third layer over its second over its first. -/
theorem result_eq (c : Dev nD) :
    W12 m ρ c (Proc.devRef .tc main_v66) = Cert.Net.kstep64 (Cert.Net.kstep64 (Cert.Net.kstep128 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8))) (W0 m ρ c (Proc.devRef .tc main_arg1)) (W0 m ρ c (Proc.devRef .tc main_arg2)) 1#32 (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14))) (W0 m ρ c (Proc.devRef .tc main_arg1)) (W0 m ρ c (Proc.devRef .tc main_arg2)) 2#32 (W0 m ρ c (Proc.devRef .tc main_arg15)) (W0 m ρ c (Proc.devRef .tc main_arg16)) (W0 m ρ c (Proc.devRef .tc main_arg17)) (W0 m ρ c (Proc.devRef .tc main_arg18)) (W0 m ρ c (Proc.devRef .tc main_arg19)) (W0 m ρ c (Proc.devRef .tc main_arg20)) := by
  rw [val3 m ρ c, val2 m ρ c, val1 m ρ c]

end Cert.KernelIdeal.Host

end
-- ==== Proof.RefRun.lean ====
import proofs.«139314_j24610162606552_1_alg».proof.Proof.Gen.ReferenceIdeal.Run
import proofs.«139314_j24610162606552_1_alg».proof.Proof.Spec

/-!
# The reference's result is the three-layer network

The reference's run ends with its result buffer at one long composed term of the argument arrays. That term is,
read layer by layer, the third layer over the second over the first (`Cert.Net.step64`, `Cert.Net.net1`): the two
sides are the same text once the layers' definitions are unfolded.
-/

noncomputable section

namespace Cert.ReferenceIdeal.RefValue

open Cert.ReferenceIdeal Idealize.ShloMosaic Idealize.ShloMosaic.TcCoe Idealize.SL.Sem

variable {F : FTy → Type} [FloatOps F]

set_option maxRecDepth 16384 in
/-- The reference's result term is the network of its argument arrays. -/
theorem res_eq (m : (ℓ : Loc nD τ sig) → Buf (Elt F) ℓ) (c : Dev nD) :
    Cert.ReferenceIdeal.Value.res_main_v99 (F := F) m c
      = Cert.Net.step64 (Cert.Net.step64 (Cert.Net.net1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg2)) 1#32 (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg1)) (m ((c.tc : Thread nD τ).loc main_arg2)) 2#32 (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold Cert.ReferenceIdeal.Value.res_main_v99 Cert.Net.step64 Cert.Net.net1 Cert.Net.layer64 Cert.Net.layer128 Cert.Net.agg64 Cert.Net.agg128
  rfl

end Cert.ReferenceIdeal.RefValue

end
-- ==== Proof.Real.lean ====
import Mathlib.Data.EReal.Operations
import Mathlib.Algebra.BigOperators.Group.Finset.Basic

/-!
# Arrays of extended reals whose entries are all real numbers

The two programs agree only where no infinity enters a product with a sum (x · (a + b) = x · a + x · b fails at
x = +∞, a = 1, b = -1). Every float input is finite, and sums, products and maxima of real numbers are real, so
every intermediate array of the network is real; `IsReal` is the form in which this is carried.
-/

namespace Cert.Net

/-- Every entry of the array is (the image of) a real number. -/
def IsReal {ι : Type} (v : ι → EReal) : Prop := ∃ r : ι → ℝ, v = fun i => (r i : EReal)

theorem IsReal.apply {ι : Type} {v : ι → EReal} (h : IsReal v) (i : ι) : ∃ r : ℝ, v i = (r : EReal) := by
  obtain ⟨r, rfl⟩ := h
  exact ⟨r i, rfl⟩

theorem isReal_of_forall {ι : Type} {v : ι → EReal} (h : ∀ i, ∃ r : ℝ, v i = (r : EReal)) : IsReal v :=
  ⟨fun i => (h i).choose, funext fun i => (h i).choose_spec⟩

/-- A finite sum of real numbers, taken in the extended reals, is the real sum. -/
theorem coe_sum {κ : Type} (s : Finset κ) (f : κ → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

end Cert.Net
-- ==== Proof.Finite.lean ====
import proofs.«139314_j24610162606552_1_alg».proof.Defs
import proofs.«139314_j24610162606552_1_alg».proof.Proof.Gen.Pre_finite_inputs
import proofs.«139314_j24610162606552_1_alg».proof.Proof.Gen.KernelIdeal
import proofs.«139314_j24610162606552_1_alg».proof.Proof.Real
import Idealize.ShloMosaic.Lib.ReduceAll
import Idealize.ShloMosaic.Lib.ValueIdx
import Idealize.ShloMosaic.Lib.Pipeline.Value

/-!
# Under the precondition every float argument array is an array of real numbers

The precondition `finite_inputs` is the conjunction, over the 19 float arguments `a`, of `jnp.all(|a| < +∞)`. At the
ideal instance a float is an extended real and `|x| = max x (-x)`; `max x (-x) < ⊤` excludes `x = ⊤` (then `max = ⊤`)
and `x = ⊥` (then `-x = ⊤`), so every entry is a real number.
-/

namespace Cert.Net

open Idealize.ShloMosaic Idealize.SL.Sem
open Cert.Pre_finite_inputs

/-- The shape of a scalar has exactly one index. -/
instance : Subsingleton S_.Idx := ⟨fun a b => funext fun d => d.elim0⟩

/-- The word 0x7F800000 is +∞. -/
theorem inf_eq_top : Ideal.ofBits .f32 0x7F800000#32 = (⊤ : EReal) := by simp [Ideal.ofBits, Ideal.ieee]

/-- An extended real whose absolute value `max x (-x)` is below +∞ is a real number: at `x = ⊤` the maximum is `⊤`, at
    `x = ⊥` its negation is `⊤`. -/
theorem real_of_abs_lt_inf (x : EReal)
    (h : Ideal.cmp .olt (max x (-x)) (Ideal.ofBits .f32 0x7F800000#32) = 1#1) : ∃ r : ℝ, x = (r : EReal) := by
  rw [inf_eq_top] at h
  simp only [Ideal.cmp] at h
  induction x using EReal.rec with
  | bot => simp at h
  | coe r => exact ⟨r, rfl⟩
  | top => simp at h

/-- `jnp.all(|a| < +∞) = 1` makes `a` an array of real numbers, whatever its shape: the reduction by `and` into one
    index being 1, every compared entry is 1; the broadcast scalar reads +∞ everywhere. -/
theorem isReal_of_all {s : Shape} {axes : List (Fin s.rank)} (a : FVec Ideal s .f32)
    (hb : S_.BroadcastsInDim s (![] : Fin 0 → Fin s.rank)) (h : s.ReducesTo axes S_) (hu : 0 < S_.numel)
    (e : Host.reduce IntOp.andi
        (cmpf .olt (Host.absf a) (broadcastInDim s ![] hb (constant (F := Ideal) S_ .f32 0x7F800000#32)))
        (constantI S_ 1 1#1) h hu ValueIdx.ix0 = 1#1) : IsReal a := by
  refine isReal_of_forall fun i => ?_
  have hi := Host.reduce_andi_all _ _ h hu ValueIdx.ix0 e i
  rw [ValueIdx.cmpf_apply, broadcastInDim_apply ![] hb _ i ValueIdx.ix0 (fun a => a.elim0), ValueIdx.constant_apply] at hi
  exact real_of_abs_lt_inf (a i) hi

/-- An `and` of two scalar `i1` arrays that is 1 at the one index had both sides 1 there. -/
theorem andi_ix0 (x y : IVec S_ 1) (h : andi x y ValueIdx.ix0 = 1#1) : x ValueIdx.ix0 = 1#1 ∧ y ValueIdx.ix0 = 1#1 :=
  IntOp.andi_eq_one.1 h

/-- The last part of the conjunction: the tests of arguments 19 and 20 and what was accumulated before them. -/
theorem part5_real (a19 : FVec Ideal S64x64 .f32) (a20 : FVec Ideal S64 .f32) (v83 : IVec S_ 1)
    (h : fn_part5 (F := Ideal) a20 v83 (Host.absf a19) (constant S_ .f32 0x7F800000#32) ValueIdx.ix0 = 1#1) :
    v83 ValueIdx.ix0 = 1#1 ∧ IsReal a19 ∧ IsReal a20 := by
  dsimp only [fn_part5] at h
  obtain ⟨h, h20⟩ := andi_ix0 _ _ h
  obtain ⟨h, h19⟩ := andi_ix0 _ _ h
  exact ⟨h, isReal_of_all a19 _ _ _ h19, isReal_of_all a20 _ _ _ h20⟩

/-- The fourth part: the tests of arguments 16, 17, 18, then the last part. -/
theorem part4_real (a16 : FVec Ideal S64 .f32) (a17 : FVec Ideal S64x64 .f32) (a18 : FVec Ideal S64 .f32)
    (a19 : FVec Ideal S64x64 .f32) (a20 : FVec Ideal S64 .f32) (v63 v67 : IVec S_ 1)
    (h : fn_part4 (F := Ideal) a16 a17 a18 a19 a20 v63 v67 ValueIdx.ix0 = 1#1) :
    v63 ValueIdx.ix0 = 1#1 ∧ v67 ValueIdx.ix0 = 1#1 ∧ IsReal a16 ∧ IsReal a17 ∧ IsReal a18 ∧ IsReal a19 ∧ IsReal a20 := by
  dsimp only [fn_part4] at h
  obtain ⟨h, r19, r20⟩ := part5_real a19 a20 _ h
  obtain ⟨h, h18⟩ := andi_ix0 _ _ h
  obtain ⟨h, h17⟩ := andi_ix0 _ _ h
  obtain ⟨h, h16⟩ := andi_ix0 _ _ h
  obtain ⟨h63, h67⟩ := andi_ix0 _ _ h
  exact ⟨h63, h67, isReal_of_all a16 _ _ _ h16, isReal_of_all a17 _ _ _ h17, isReal_of_all a18 _ _ _ h18, r19, r20⟩

/-- The third part: it receives the absolute values of argument 12 and the broadcast +∞ they are compared with; it tests
    arguments 12, 13, 14, 15, then the fourth part. -/
theorem part3_real (a12 : FVec Ideal S64 .f32) (a13 : FVec Ideal S64x64 .f32) (a14 : FVec Ideal S64 .f32)
    (a15 : FVec Ideal S64x64 .f32) (a16 : FVec Ideal S64 .f32) (a17 : FVec Ideal S64x64 .f32) (a18 : FVec Ideal S64 .f32)
    (a19 : FVec Ideal S64x64 .f32) (a20 : FVec Ideal S64 .f32) (v48 : IVec S_ 1)
    (h : fn_part3 (F := Ideal) a13 a14 a15 a16 a17 a18 a19 a20 v48 (Host.absf a12)
        (broadcastInDim S64 ![] Facts.bcast_S_S64 (constant S_ .f32 0x7F800000#32)) ValueIdx.ix0 = 1#1) :
    v48 ValueIdx.ix0 = 1#1 ∧ IsReal a12 ∧ IsReal a13 ∧ IsReal a14 ∧ IsReal a15 ∧ IsReal a16 ∧ IsReal a17 ∧ IsReal a18
      ∧ IsReal a19 ∧ IsReal a20 := by
  dsimp only [fn_part3] at h
  obtain ⟨h, h15, r16, r17, r18, r19, r20⟩ := part4_real a16 a17 a18 a19 a20 _ _ h
  obtain ⟨h, h14⟩ := andi_ix0 _ _ h
  obtain ⟨h, h13⟩ := andi_ix0 _ _ h
  obtain ⟨h48, h12⟩ := andi_ix0 _ _ h
  exact ⟨h48, isReal_of_all a12 _ _ _ h12, isReal_of_all a13 _ _ _ h13, isReal_of_all a14 _ _ _ h14,
    isReal_of_all a15 _ _ _ h15, r16, r17, r18, r19, r20⟩

/-- The second part: the tests of arguments 9, 10, 11, then the third part. -/
theorem part2_real (a9 : FVec Ideal S64x64 .f32) (a10 : FVec Ideal S64 .f32) (a11 : FVec Ideal S64x64 .f32)
    (a12 : FVec Ideal S64 .f32) (a13 : FVec Ideal S64x64 .f32) (a14 : FVec Ideal S64 .f32)
    (a15 : FVec Ideal S64x64 .f32) (a16 : FVec Ideal S64 .f32) (a17 : FVec Ideal S64x64 .f32) (a18 : FVec Ideal S64 .f32)
    (a19 : FVec Ideal S64x64 .f32) (a20 : FVec Ideal S64 .f32) (v33 : IVec S_ 1)
    (h : fn_part2 (F := Ideal) a9 a10 a11 a12 a13 a14 a15 a16 a17 a18 a19 a20 v33 ValueIdx.ix0 = 1#1) :
    v33 ValueIdx.ix0 = 1#1 ∧ IsReal a9 ∧ IsReal a10 ∧ IsReal a11 ∧ IsReal a12 ∧ IsReal a13 ∧ IsReal a14 ∧ IsReal a15
      ∧ IsReal a16 ∧ IsReal a17 ∧ IsReal a18 ∧ IsReal a19 ∧ IsReal a20 := by
  dsimp only [fn_part2] at h
  obtain ⟨h, r12, r13, r14, r15, r16, r17, r18, r19, r20⟩ := part3_real a12 a13 a14 a15 a16 a17 a18 a19 a20 _ h
  obtain ⟨h, h11⟩ := andi_ix0 _ _ h
  obtain ⟨h, h10⟩ := andi_ix0 _ _ h
  obtain ⟨h33, h9⟩ := andi_ix0 _ _ h
  exact ⟨h33, isReal_of_all a9 _ _ _ h9, isReal_of_all a10 _ _ _ h10, isReal_of_all a11 _ _ _ h11,
    r12, r13, r14, r15, r16, r17, r18, r19, r20⟩

/-- The first part: it receives the comparison of argument 5 with +∞; it tests arguments 5, 6, 7, 8, then the second
    part. -/
theorem part1_real (a5 : FVec Ideal S64x128 .f32) (a6 : FVec Ideal S64 .f32) (a7 : FVec Ideal S64x128 .f32)
    (a8 : FVec Ideal S64 .f32) (a9 : FVec Ideal S64x64 .f32) (a10 : FVec Ideal S64 .f32) (a11 : FVec Ideal S64x64 .f32)
    (a12 : FVec Ideal S64 .f32) (a13 : FVec Ideal S64x64 .f32) (a14 : FVec Ideal S64 .f32)
    (a15 : FVec Ideal S64x64 .f32) (a16 : FVec Ideal S64 .f32) (a17 : FVec Ideal S64x64 .f32) (a18 : FVec Ideal S64 .f32)
    (a19 : FVec Ideal S64x64 .f32) (a20 : FVec Ideal S64 .f32) (v13 : IVec S_ 1)
    (h : fn_part1 (F := Ideal) a6 a7 a8 a9 a10 a11 a12 a13 a14 a15 a16 a17 a18 a19 a20 v13
        (cmpf .olt (Host.absf a5) (broadcastInDim S64x128 ![] Facts.bcast_S_S64x128 (constant S_ .f32 0x7F800000#32)))
        ValueIdx.ix0 = 1#1) :
    v13 ValueIdx.ix0 = 1#1 ∧ IsReal a5 ∧ IsReal a6 ∧ IsReal a7 ∧ IsReal a8 ∧ IsReal a9 ∧ IsReal a10 ∧ IsReal a11
      ∧ IsReal a12 ∧ IsReal a13 ∧ IsReal a14 ∧ IsReal a15 ∧ IsReal a16 ∧ IsReal a17 ∧ IsReal a18 ∧ IsReal a19
      ∧ IsReal a20 := by
  dsimp only [fn_part1] at h
  obtain ⟨h, r9, r10, r11, r12, r13, r14, r15, r16, r17, r18, r19, r20⟩ :=
    part2_real a9 a10 a11 a12 a13 a14 a15 a16 a17 a18 a19 a20 _ h
  obtain ⟨h, h8⟩ := andi_ix0 _ _ h
  obtain ⟨h, h7⟩ := andi_ix0 _ _ h
  obtain ⟨h, h6⟩ := andi_ix0 _ _ h
  obtain ⟨h13, h5⟩ := andi_ix0 _ _ h
  exact ⟨h13, isReal_of_all a5 _ _ _ h5, isReal_of_all a6 _ _ _ h6, isReal_of_all a7 _ _ _ h7, isReal_of_all a8 _ _ _ h8,
    r9, r10, r11, r12, r13, r14, r15, r16, r17, r18, r19, r20⟩

/-- `finite_inputs` being all ones, every float argument is an array of real numbers (arguments 1 and 2 are integer
    arrays, which the predicate does not test). -/
theorem fn_real (a0 : FVec Ideal S100000x128 .f32) (a1 : IVec S2x1000000 32) (a2 : IVec S1000000 32)
    (a3 : FVec Ideal S64x128 .f32) (a4 : FVec Ideal S64 .f32)
    (a5 : FVec Ideal S64x128 .f32) (a6 : FVec Ideal S64 .f32) (a7 : FVec Ideal S64x128 .f32)
    (a8 : FVec Ideal S64 .f32) (a9 : FVec Ideal S64x64 .f32) (a10 : FVec Ideal S64 .f32) (a11 : FVec Ideal S64x64 .f32)
    (a12 : FVec Ideal S64 .f32) (a13 : FVec Ideal S64x64 .f32) (a14 : FVec Ideal S64 .f32)
    (a15 : FVec Ideal S64x64 .f32) (a16 : FVec Ideal S64 .f32) (a17 : FVec Ideal S64x64 .f32) (a18 : FVec Ideal S64 .f32)
    (a19 : FVec Ideal S64x64 .f32) (a20 : FVec Ideal S64 .f32)
    (h : fn (F := Ideal) a0 a1 a2 a3 a4 a5 a6 a7 a8 a9 a10 a11 a12 a13 a14 a15 a16 a17 a18 a19 a20 = fun _ => 1#1) :
    IsReal a0 ∧ IsReal a3 ∧ IsReal a4 ∧ IsReal a5 ∧ IsReal a6 ∧ IsReal a7 ∧ IsReal a8 ∧ IsReal a9 ∧ IsReal a10
      ∧ IsReal a11 ∧ IsReal a12 ∧ IsReal a13 ∧ IsReal a14 ∧ IsReal a15 ∧ IsReal a16 ∧ IsReal a17 ∧ IsReal a18
      ∧ IsReal a19 ∧ IsReal a20 := by
  have h := congrFun h ValueIdx.ix0
  dsimp only [fn] at h
  obtain ⟨h, r5, r6, r7, r8, r9, r10, r11, r12, r13, r14, r15, r16, r17, r18, r19, r20⟩ :=
    part1_real a5 a6 a7 a8 a9 a10 a11 a12 a13 a14 a15 a16 a17 a18 a19 a20 _ h
  obtain ⟨h, h4⟩ := andi_ix0 _ _ h
  obtain ⟨h0, h3⟩ := andi_ix0 _ _ h
  exact ⟨isReal_of_all a0 _ _ _ h0, isReal_of_all a3 _ _ _ h3, isReal_of_all a4 _ _ _ h4,
    r5, r6, r7, r8, r9, r10, r11, r12, r13, r14, r15, r16, r17, r18, r19, r20⟩

/-- The kernel's precondition gives, on every device, that each float argument array is an array of real numbers. -/
theorem pre_real (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg3))
    ∧ IsReal (m ((c.tc : Thread Cert.KernelIdeal.nD Cert.KernelIdeal.τ).loc Cert.KernelIdeal.main_arg4))
    ∧ IsReal (m ((c.tc : Thread Cert.KernelIdeal.nD Cert.KernelIdeal.τ).loc Cert.KernelIdeal.main_arg5))
    ∧ IsReal (m ((c.tc : Thread Cert.KernelIdeal.nD Cert.KernelIdeal.τ).loc Cert.KernelIdeal.main_arg6))
    ∧ IsReal (m ((c.tc : Thread Cert.KernelIdeal.nD Cert.KernelIdeal.τ).loc Cert.KernelIdeal.main_arg7))
    ∧ IsReal (m ((c.tc : Thread Cert.KernelIdeal.nD Cert.KernelIdeal.τ).loc Cert.KernelIdeal.main_arg8))
    ∧ IsReal (m ((c.tc : Thread Cert.KernelIdeal.nD Cert.KernelIdeal.τ).loc Cert.KernelIdeal.main_arg9))
    ∧ IsReal (m ((c.tc : Thread Cert.KernelIdeal.nD Cert.KernelIdeal.τ).loc Cert.KernelIdeal.main_arg10))
    ∧ IsReal (m ((c.tc : Thread Cert.KernelIdeal.nD Cert.KernelIdeal.τ).loc Cert.KernelIdeal.main_arg11))
    ∧ IsReal (m ((c.tc : Thread Cert.KernelIdeal.nD Cert.KernelIdeal.τ).loc Cert.KernelIdeal.main_arg12))
    ∧ IsReal (m ((c.tc : Thread Cert.KernelIdeal.nD Cert.KernelIdeal.τ).loc Cert.KernelIdeal.main_arg13))
    ∧ IsReal (m ((c.tc : Thread Cert.KernelIdeal.nD Cert.KernelIdeal.τ).loc Cert.KernelIdeal.main_arg14))
    ∧ IsReal (m ((c.tc : Thread Cert.KernelIdeal.nD Cert.KernelIdeal.τ).loc Cert.KernelIdeal.main_arg15))
    ∧ IsReal (m ((c.tc : Thread Cert.KernelIdeal.nD Cert.KernelIdeal.τ).loc Cert.KernelIdeal.main_arg16))
    ∧ IsReal (m ((c.tc : Thread Cert.KernelIdeal.nD Cert.KernelIdeal.τ).loc Cert.KernelIdeal.main_arg17))
    ∧ IsReal (m ((c.tc : Thread Cert.KernelIdeal.nD Cert.KernelIdeal.τ).loc Cert.KernelIdeal.main_arg18))
    ∧ IsReal (m ((c.tc : Thread Cert.KernelIdeal.nD Cert.KernelIdeal.τ).loc Cert.KernelIdeal.main_arg19))
    ∧ IsReal (m ((c.tc : Thread Cert.KernelIdeal.nD Cert.KernelIdeal.τ).loc Cert.KernelIdeal.main_arg20)) :=
  fn_real _ _ _ _ _ _ _ _ _ _ _ _ _ _ _ _ _ _ _ _ _ (hpre c)

end Cert.Net
-- ==== Proof.Law.lean ====
import proofs.«139314_j24610162606552_1_alg».proof.Proof.KSpec
import proofs.«139314_j24610162606552_1_alg».proof.Proof.Real
import Idealize.ShloMosaic.Lib.Pipeline.Value
import Idealize.ShloMosaic.Lib.ValueIdx
import Idealize.ShloMosaic.PureOps.Ideal.Laws

/-!
# The layer law

One layer of the network is `relu (agg · Wlᵀ + bl + h · W0ᵀ + b0 + h · W1ᵀ + b1)`. The reference computes the three
products separately and adds the six terms in that order; the kernel lays `agg` and `h` side by side, lays `Wl` beside
`W0 + W1`, adds the three biases first, and computes one product of twice the width. Entry by entry the two are the
same real number: the long sum splits into its two halves, `h(n,k) · (w0(o,k) + w1(o,k))` distributes (true of real
numbers; on the extended reals it fails when an infinity meets a sum of opposite signs, which is why every array is
assumed real-valued), and what remains is the order of a finite sum of reals. The positive part of a real number is
real, so the layer's output is real-valued again and the next layer may use the law in turn.
-/

noncomputable section

namespace Cert.Net

open Idealize.ShloMosaic Idealize.ShloMosaic.ValueIdx

/-! ## The algebra, on real numbers inside the extended reals -/

/-- A sum over twice `K` terms is the sum of its first `K` terms plus the sum of its last `K`. -/
theorem sum_fin_double {K K2 : ℕ} (hK : K2 = K + K) (f : Fin K2 → EReal) :
    ∑ k, f k = ∑ k : Fin K, f ⟨k.val, by omega⟩ + ∑ k : Fin K, f ⟨K + k.val, by omega⟩ := by
  subst hK
  exact Fin.sum_univ_add f

/-- The positive part of a real number, taken in the extended reals, is a real number. -/
theorem max_coe_zero (x : ℝ) : max (x : EReal) 0 = ((max x 0 : ℝ) : EReal) :=
  (EReal.coe_strictMono.monotone.map_max (a := x) (b := 0)).symm

/-- THE LAW ON ONE ENTRY. With every number real, one row `[a | h]` against `[wl | w0 + w1]` plus the one bias
    `bl + (b0 + b1)` is the three separate products with their biases added in the reference's order:
    `h · (w0 + w1) = h · w0 + h · w1` term by term (true of real numbers; false at an infinity), and the rest is
    the order of a sum. Both have the same positive part, which is real. -/
theorem law_entry {K : ℕ} (a wl h w0 w1 : Fin K → ℝ) (bl b0 b1 : ℝ) :
    max (((∑ k, (a k : EReal) * (wl k : EReal)) + ∑ k, (h k : EReal) * ((w0 k : EReal) + (w1 k : EReal)))
          + ((bl : EReal) + ((b0 : EReal) + (b1 : EReal)))) 0
      = max ((((((∑ k, (a k : EReal) * (wl k : EReal)) + (bl : EReal)) + ∑ k, (h k : EReal) * (w0 k : EReal))
          + (b0 : EReal)) + ∑ k, (h k : EReal) * (w1 k : EReal)) + (b1 : EReal)) 0
    ∧ ∃ r : ℝ, max ((((((∑ k, (a k : EReal) * (wl k : EReal)) + (bl : EReal)) + ∑ k, (h k : EReal) * (w0 k : EReal))
          + (b0 : EReal)) + ∑ k, (h k : EReal) * (w1 k : EReal)) + (b1 : EReal)) 0 = (r : EReal) := by
  simp only [← EReal.coe_mul, ← EReal.coe_add, coe_sum, max_coe_zero]
  refine ⟨?_, _, rfl⟩
  have e : ((∑ k, a k * wl k) + ∑ k, h k * (w0 k + w1 k)) + (bl + (b0 + b1))
      = ((((((∑ k, a k * wl k) + bl) + ∑ k, h k * w0 k) + b0) + ∑ k, h k * w1 k) + b1) := by
    simp only [mul_add, Finset.sum_add_distrib]
    ring
  rw [e]

/-! ## The reference's layer read at an entry -/

section Reference

open Cert.ReferenceIdeal Cert.ReferenceIdeal.Facts₀ Cert.ReferenceIdeal.Facts

/-- The product's left operand keeps the result's row … -/
theorem dot128_lhs0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl

/-- … and its right operand the result's column. -/
theorem dot128_rhs1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- A row-by-column product against the TRANSPOSED weights, read at entry (n, o): the sum over k of x(n, k) · w(o, k)
    (128 terms). -/
theorem dotT128_apply (x : FVec Ideal S100000x128 .f32) (w : FVec Ideal S64x128 .f32) (n : Fin 100000) (o : Fin 64) :
    Host.dotGeneral dot_S100000x128_S128x64_S100000x64_1_0_0_1_n_n none x
        (transpose S128x64 [1, 0] w transposes_S64x128_S128x64_1_0) (ix2 n o)
      = ∑ k : Fin 128, x (ix2 n k) * w (ix2 o k) := by
  generalize hy : transpose S128x64 [1, 0] w transposes_S64x128_S128x64_1_0 = y
  simp only [Host.dotGeneral]
  rw [Ideal.dotGeneral_apply,
    ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 n o)
      ((ValueIdx.contrEquiv1 dot_S100000x128_S128x64_S100000x64_1_0_0_1_n_n 128 rfl rfl).symm k) = ix2 n k :=
    funext fun a => Fin.ext (by
      match a with
      | ⟨0, _⟩ => exact dot128_lhs0 _ _
      | ⟨1, _⟩ =>
        exact (dot_S100000x128_S128x64_S100000x64_1_0_0_1_n_n.lhsIdx_val_of_single rfl (ix2 n o) _).trans hk)
  have er : dot_S100000x128_S128x64_S100000x64_1_0_0_1_n_n.rhsIdx (ix2 n o)
      ((ValueIdx.contrEquiv1 dot_S100000x128_S128x64_S100000x64_1_0_0_1_n_n 128 rfl rfl).symm k) = ix2 k o :=
    funext fun a => Fin.ext (by
      match a with
      | ⟨0, _⟩ =>
        exact (dot_S100000x128_S128x64_S100000x64_1_0_0_1_n_n.rhsIdx_val_of_single rfl (ix2 n o) _).trans hk
      | ⟨1, _⟩ => exact dot128_rhs1 _ _)
  rw [el, er, ← hy]
  exact congrArg (x (ix2 n k) * ·) (transpose_apply [1, 0] w transposes_S64x128_S128x64_1_0 (ix2 k o) (ix2 o k)
    (fun b => match b with
      | ⟨0, _⟩ => rfl
      | ⟨1, _⟩ => rfl))

/-- A bias row broadcast over the nodes, read at entry (n, o): the bias at o. -/
theorem bias_apply (b : FVec Ideal S64 .f32) (n : Fin 100000) (o : Fin 64) :
    broadcastInDim S100000x64 ![0, 1] bcast_S1x64_S100000x64_0_1 (broadcastInDim S1x64 ![1] bcast_S64_S1x64_1 b) (ix2 n o)
      = b (ix1 o) := by
  refine (broadcastInDim_apply _ bcast_S1x64_S100000x64_0_1 _ (ix2 n o) (ix2 (0 : Fin 1) o) (fun a => match a with
    | ⟨0, _⟩ => by show 0 = if (1 : Nat) = 1 then 0 else n.val; rw [if_pos rfl]
    | ⟨1, _⟩ => by show o.val = if (64 : Nat) = 1 then 0 else o.val; rw [if_neg (by decide)])).trans ?_
  exact broadcastInDim_apply _ bcast_S64_S1x64_1 b (ix2 (0 : Fin 1) o) (ix1 o) (fun a => match a with
    | ⟨0, _⟩ => by show o.val = if (64 : Nat) = 1 then 0 else o.val; rw [if_neg (by decide)])

/-- The zero splat, read anywhere: the extended real 0. -/
theorem zeros_apply (i : S100000x64.Idx) :
    broadcastInDim S100000x64 ![] bcast_S_S100000x64 (constant (F := Ideal) S_ .f32 0x00000000#32) i = 0 := by
  refine (broadcastInDim_apply _ bcast_S_S100000x64 _ i ix0 (fun a => a.elim0)).trans ?_
  exact Ideal.ofBits_zero_f32

/-- THE REFERENCE'S LAYER (128 features in) AT ENTRY (n, o), as the reference adds it up. -/
theorem layer128_apply (h agg : FVec Ideal S100000x128 .f32) (wl : FVec Ideal S64x128 .f32) (bl : FVec Ideal S64 .f32)
    (w0 : FVec Ideal S64x128 .f32) (b0 : FVec Ideal S64 .f32) (w1 : FVec Ideal S64x128 .f32) (b1 : FVec Ideal S64 .f32)
    (n : Fin 100000) (o : Fin 64) :
    layer128 (F := Ideal) h agg wl bl w0 b0 w1 b1 (ix2 n o)
      = max ((((((∑ k : Fin 128, agg (ix2 n k) * wl (ix2 o k)) + bl (ix1 o)) + ∑ k : Fin 128, h (ix2 n k) * w0 (ix2 o k))
          + b0 (ix1 o)) + ∑ k : Fin 128, h (ix2 n k) * w1 (ix2 o k)) + b1 (ix1 o)) 0 := by
  unfold layer128
  rw [maximumf_apply, addf_apply, addf_apply, addf_apply, addf_apply, addf_apply, zeros_apply,
    dotT128_apply, dotT128_apply, dotT128_apply, bias_apply, bias_apply, bias_apply]

/-- The product's left operand keeps the result's row … -/
theorem dot64_lhs0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

/-- … and its right operand the result's column. -/
theorem dot64_rhs1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- A row-by-column product against the TRANSPOSED weights, read at entry (n, o): the sum over k of x(n, k) · w(o, k)
    (64 terms). -/
theorem dotT64_apply (x : FVec Ideal S100000x64 .f32) (w : FVec Ideal S64x64 .f32) (n : Fin 100000) (o : Fin 64) :
    Host.dotGeneral dot_S100000x64_S64x64_S100000x64_1_0_0_1_n_n none x
        (transpose S64x64 [1, 0] w transposes_S64x64_S64x64_1_0) (ix2 n o)
      = ∑ k : Fin 64, x (ix2 n k) * w (ix2 o k) := by
  generalize hy : transpose S64x64 [1, 0] w transposes_S64x64_S64x64_1_0 = y
  simp only [Host.dotGeneral]
  rw [Ideal.dotGeneral_apply,
    ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 n o)
      ((ValueIdx.contrEquiv1 dot_S100000x64_S64x64_S100000x64_1_0_0_1_n_n 64 rfl rfl).symm k) = ix2 n k :=
    funext fun a => Fin.ext (by
      match a with
      | ⟨0, _⟩ => exact dot64_lhs0 _ _
      | ⟨1, _⟩ =>
        exact (dot_S100000x64_S64x64_S100000x64_1_0_0_1_n_n.lhsIdx_val_of_single rfl (ix2 n o) _).trans hk)
  have er : dot_S100000x64_S64x64_S100000x64_1_0_0_1_n_n.rhsIdx (ix2 n o)
      ((ValueIdx.contrEquiv1 dot_S100000x64_S64x64_S100000x64_1_0_0_1_n_n 64 rfl rfl).symm k) = ix2 k o :=
    funext fun a => Fin.ext (by
      match a with
      | ⟨0, _⟩ =>
        exact (dot_S100000x64_S64x64_S100000x64_1_0_0_1_n_n.rhsIdx_val_of_single rfl (ix2 n o) _).trans hk
      | ⟨1, _⟩ => exact dot64_rhs1 _ _)
  rw [el, er, ← hy]
  exact congrArg (x (ix2 n k) * ·) (transpose_apply [1, 0] w transposes_S64x64_S64x64_1_0 (ix2 k o) (ix2 o k)
    (fun b => match b with
      | ⟨0, _⟩ => rfl
      | ⟨1, _⟩ => rfl))

/-- THE REFERENCE'S LAYER (64 features in) AT ENTRY (n, o), as the reference adds it up. -/
theorem layer64_apply (h agg : FVec Ideal S100000x64 .f32) (wl : FVec Ideal S64x64 .f32) (bl : FVec Ideal S64 .f32)
    (w0 : FVec Ideal S64x64 .f32) (b0 : FVec Ideal S64 .f32) (w1 : FVec Ideal S64x64 .f32) (b1 : FVec Ideal S64 .f32)
    (n : Fin 100000) (o : Fin 64) :
    layer64 (F := Ideal) h agg wl bl w0 b0 w1 b1 (ix2 n o)
      = max ((((((∑ k : Fin 64, agg (ix2 n k) * wl (ix2 o k)) + bl (ix1 o)) + ∑ k : Fin 64, h (ix2 n k) * w0 (ix2 o k))
          + b0 (ix1 o)) + ∑ k : Fin 64, h (ix2 n k) * w1 (ix2 o k)) + b1 (ix1 o)) 0 := by
  unfold layer64
  rw [maximumf_apply, addf_apply, addf_apply, addf_apply, addf_apply, addf_apply, zeros_apply,
    dotT64_apply, dotT64_apply, dotT64_apply, bias_apply, bias_apply, bias_apply]

end Reference

/-! ## The kernel's layer read at an entry -/

section Kernel

/-- Two arrays of `K` columns side by side, read at a column below `K`: the first array there. -/
theorem cat_left {α : Type} {N K K2 : ℕ} (hK : K2 = K + K) (x y : (⟨2, ![N, K]⟩ : Shape).Idx → α)
    (hc : Shape.Concatenates [(⟨2, ![N, K]⟩ : Shape), ⟨2, ![N, K]⟩] ⟨2, ![N, K2]⟩ 1) (n : Fin N) (k : Fin K) :
    concatenate ⟨2, ![N, K2]⟩ 1 [⟨⟨2, ![N, K]⟩, x⟩, ⟨⟨2, ![N, K]⟩, y⟩] hc (ix2 n (⟨k.val, by omega⟩ : Fin K2)) = x (ix2 n k) :=
  concatenate_pair_apply_left (t := ⟨2, ![N, K2]⟩) (s₁ := ⟨2, ![N, K]⟩) (s₂ := ⟨2, ![N, K]⟩) (1 : Fin 2) x y hc _ rfl (ix2 n k)
    (fun b => by
      match b with
      | ⟨0, _⟩ => rfl
      | ⟨1, _⟩ => rfl)

/-- Two arrays of `K` columns side by side, read at column `K + k`: the second array at column `k`. -/
theorem cat_right {α : Type} {N K K2 : ℕ} (hK : K2 = K + K) (x y : (⟨2, ![N, K]⟩ : Shape).Idx → α)
    (hc : Shape.Concatenates [(⟨2, ![N, K]⟩ : Shape), ⟨2, ![N, K]⟩] ⟨2, ![N, K2]⟩ 1) (n : Fin N) (k : Fin K) :
    concatenate ⟨2, ![N, K2]⟩ 1 [⟨⟨2, ![N, K]⟩, x⟩, ⟨⟨2, ![N, K]⟩, y⟩] hc (ix2 n (⟨K + k.val, by omega⟩ : Fin K2)) = y (ix2 n k) :=
  concatenate_pair_apply_right (t := ⟨2, ![N, K2]⟩) (s₁ := ⟨2, ![N, K]⟩) (s₂ := ⟨2, ![N, K]⟩) (1 : Fin 2) x y hc _ rfl rfl (ix2 n k)
    (fun b hb => by
      match b with
      | ⟨0, _⟩ => rfl
      | ⟨1, _⟩ => exact absurd rfl hb)
    (by show k.val + K = K + k.val; omega)

/-- THE KERNEL'S ENTRY (p, q) over `[a | x]` against `[wl | w]`: the two halves of the long sum, each over its own pair
    of arrays. -/
theorem linReluAt_cat {N K K2 H : ℕ} (hK : K2 = K + K) (a x : (⟨2, ![N, K]⟩ : Shape).Idx → EReal)
    (wl w : (⟨2, ![H, K]⟩ : Shape).Idx → EReal) (b : (⟨2, ![1, H]⟩ : Shape).Idx → EReal)
    (hz : Shape.Concatenates [(⟨2, ![N, K]⟩ : Shape), ⟨2, ![N, K]⟩] ⟨2, ![N, K2]⟩ 1)
    (hw : Shape.Concatenates [(⟨2, ![H, K]⟩ : Shape), ⟨2, ![H, K]⟩] ⟨2, ![H, K2]⟩ 1) (p : Fin N) (q : Fin H) :
    linReluAt (concatenate ⟨2, ![N, K2]⟩ 1 [⟨⟨2, ![N, K]⟩, a⟩, ⟨⟨2, ![N, K]⟩, x⟩] hz)
        (concatenate ⟨2, ![H, K2]⟩ 1 [⟨⟨2, ![H, K]⟩, wl⟩, ⟨⟨2, ![H, K]⟩, w⟩] hw) b p q
      = max (((∑ k : Fin K, a (ix2 p k) * wl (ix2 q k)) + ∑ k : Fin K, x (ix2 p k) * w (ix2 q k)) + b (ix2 0 q)) 0 := by
  unfold linReluAt
  rw [sum_fin_double hK]
  simp only [cat_left hK, cat_right hK]

open Cert.KernelIdeal Cert.KernelIdeal.Facts₀ Cert.KernelIdeal.Facts in
/-- The bias row `[64]` viewed as `[1, 64]`, read at (0, o): the bias at o. -/
theorem biasRow_apply (b : FVec Ideal S64 .f32) (o : Fin 64) :
    shapeCast S1x64 b shapeCasts_S64_S1x64 (ix2 (0 : Fin 1) o) = b (ix1 o) :=
  shapeCast_apply b shapeCasts_S64_S1x64 (ix2 (0 : Fin 1) o) (ix1 o) (by
    rw [Shape.rowMajor_val_two, Shape.rowMajor_val_one]; show o.val = 0 * 64 + o.val; omega)

end Kernel

/-! ## The layer law -/

section Law

open Cert.KernelIdeal Cert.KernelIdeal.Facts₀ Cert.KernelIdeal.Facts

/-- THE LAYER LAW, 128 features in. On real-valued arrays the kernel's one product over `[agg | h]`, `[wl | w0 + w1]`
    and the summed bias is the reference's layer, entry by entry, and the layer is real-valued. -/
theorem layer128_law (h agg : FVec Ideal S100000x128 .f32) (wl : FVec Ideal S64x128 .f32) (bl : FVec Ideal S64 .f32)
    (w0 : FVec Ideal S64x128 .f32) (b0 : FVec Ideal S64 .f32) (w1 : FVec Ideal S64x128 .f32) (b1 : FVec Ideal S64 .f32)
    (hh : IsReal h) (hagg : IsReal agg) (hwl : IsReal wl) (hbl : IsReal bl) (hw0 : IsReal w0) (hb0 : IsReal b0)
    (hw1 : IsReal w1) (hb1 : IsReal b1) :
    linRelu 100000 256 64
        (concatenate S100000x256 1 [⟨S100000x128, agg⟩, ⟨S100000x128, h⟩] concatenates_S100000x128_S100000x128_S100000x256_d1)
        (concatenate S64x256 1 [⟨S64x128, wl⟩, ⟨S64x128, addf w0 w1⟩] concatenates_S64x128_S64x128_S64x256_d1)
        (shapeCast _ (addf bl (addf b0 b1)) shapeCasts_S64_S1x64)
      = layer128 (F := Ideal) h agg wl bl w0 b0 w1 b1
    ∧ IsReal (layer128 (F := Ideal) h agg wl bl w0 b0 w1 b1) := by
  obtain ⟨hr, rfl⟩ := hh
  obtain ⟨ar, rfl⟩ := hagg
  obtain ⟨wlr, rfl⟩ := hwl
  obtain ⟨blr, rfl⟩ := hbl
  obtain ⟨w0r, rfl⟩ := hw0
  obtain ⟨b0r, rfl⟩ := hb0
  obtain ⟨w1r, rfl⟩ := hw1
  obtain ⟨b1r, rfl⟩ := hb1
  have key : ∀ (n : Fin 100000) (o : Fin 64),
      linRelu 100000 256 64
          (concatenate S100000x256 1 [⟨S100000x128, fun i => (ar i : EReal)⟩, ⟨S100000x128, fun i => (hr i : EReal)⟩]
            concatenates_S100000x128_S100000x128_S100000x256_d1)
          (concatenate S64x256 1 [⟨S64x128, fun i => (wlr i : EReal)⟩,
            ⟨S64x128, addf (F := Ideal) (φ := .f32) (fun i => (w0r i : EReal)) (fun i => (w1r i : EReal))⟩]
            concatenates_S64x128_S64x128_S64x256_d1)
          (shapeCast _ (addf (F := Ideal) (φ := .f32) (fun i => (blr i : EReal))
            (addf (F := Ideal) (φ := .f32) (fun i => (b0r i : EReal)) (fun i => (b1r i : EReal)))) shapeCasts_S64_S1x64) (ix2 n o)
        = layer128 (F := Ideal) (fun i => (hr i : EReal)) (fun i => (ar i : EReal)) (fun i => (wlr i : EReal))
            (fun i => (blr i : EReal)) (fun i => (w0r i : EReal)) (fun i => (b0r i : EReal)) (fun i => (w1r i : EReal))
            (fun i => (b1r i : EReal)) (ix2 n o)
      ∧ ∃ r : ℝ, layer128 (F := Ideal) (fun i => (hr i : EReal)) (fun i => (ar i : EReal)) (fun i => (wlr i : EReal))
            (fun i => (blr i : EReal)) (fun i => (w0r i : EReal)) (fun i => (b0r i : EReal)) (fun i => (w1r i : EReal))
            (fun i => (b1r i : EReal)) (ix2 n o) = (r : EReal) := by
    intro n o
    rw [linRelu_ix2, linReluAt_cat (K := 128) rfl, biasRow_apply, layer128_apply]
    simp only [addf_apply]
    exact law_entry (fun k => ar (ix2 n k)) (fun k => wlr (ix2 o k)) (fun k => hr (ix2 n k)) (fun k => w0r (ix2 o k))
      (fun k => w1r (ix2 o k)) (blr (ix1 o)) (b0r (ix1 o)) (b1r (ix1 o))
  refine ⟨funext fun j => ?_, isReal_of_forall fun j => ?_⟩
  · obtain ⟨n, o, rfl⟩ : ∃ (n : Fin 100000) (o : Fin 64), j = ix2 n o := ⟨j 0, j 1, eq_ix2 j⟩
    exact (key n o).1
  · obtain ⟨n, o, rfl⟩ : ∃ (n : Fin 100000) (o : Fin 64), j = ix2 n o := ⟨j 0, j 1, eq_ix2 j⟩
    exact (key n o).2

/-- THE LAYER LAW, 64 features in. On real-valued arrays the kernel's one product over `[agg | h]`, `[wl | w0 + w1]`
    and the summed bias is the reference's layer, entry by entry, and the layer is real-valued. -/
theorem layer64_law (h agg : FVec Ideal S100000x64 .f32) (wl : FVec Ideal S64x64 .f32) (bl : FVec Ideal S64 .f32)
    (w0 : FVec Ideal S64x64 .f32) (b0 : FVec Ideal S64 .f32) (w1 : FVec Ideal S64x64 .f32) (b1 : FVec Ideal S64 .f32)
    (hh : IsReal h) (hagg : IsReal agg) (hwl : IsReal wl) (hbl : IsReal bl) (hw0 : IsReal w0) (hb0 : IsReal b0)
    (hw1 : IsReal w1) (hb1 : IsReal b1) :
    linRelu 100000 128 64
        (concatenate S100000x128 1 [⟨S100000x64, agg⟩, ⟨S100000x64, h⟩] concatenates_S100000x64_S100000x64_S100000x128_d1)
        (concatenate S64x128 1 [⟨S64x64, wl⟩, ⟨S64x64, addf w0 w1⟩] concatenates_S64x64_S64x64_S64x128_d1)
        (shapeCast _ (addf bl (addf b0 b1)) shapeCasts_S64_S1x64)
      = layer64 (F := Ideal) h agg wl bl w0 b0 w1 b1
    ∧ IsReal (layer64 (F := Ideal) h agg wl bl w0 b0 w1 b1) := by
  obtain ⟨hr, rfl⟩ := hh
  obtain ⟨ar, rfl⟩ := hagg
  obtain ⟨wlr, rfl⟩ := hwl
  obtain ⟨blr, rfl⟩ := hbl
  obtain ⟨w0r, rfl⟩ := hw0
  obtain ⟨b0r, rfl⟩ := hb0
  obtain ⟨w1r, rfl⟩ := hw1
  obtain ⟨b1r, rfl⟩ := hb1
  have key : ∀ (n : Fin 100000) (o : Fin 64),
      linRelu 100000 128 64
          (concatenate S100000x128 1 [⟨S100000x64, fun i => (ar i : EReal)⟩, ⟨S100000x64, fun i => (hr i : EReal)⟩]
            concatenates_S100000x64_S100000x64_S100000x128_d1)
          (concatenate S64x128 1 [⟨S64x64, fun i => (wlr i : EReal)⟩,
            ⟨S64x64, addf (F := Ideal) (φ := .f32) (fun i => (w0r i : EReal)) (fun i => (w1r i : EReal))⟩]
            concatenates_S64x64_S64x64_S64x128_d1)
          (shapeCast _ (addf (F := Ideal) (φ := .f32) (fun i => (blr i : EReal))
            (addf (F := Ideal) (φ := .f32) (fun i => (b0r i : EReal)) (fun i => (b1r i : EReal)))) shapeCasts_S64_S1x64) (ix2 n o)
        = layer64 (F := Ideal) (fun i => (hr i : EReal)) (fun i => (ar i : EReal)) (fun i => (wlr i : EReal))
            (fun i => (blr i : EReal)) (fun i => (w0r i : EReal)) (fun i => (b0r i : EReal)) (fun i => (w1r i : EReal))
            (fun i => (b1r i : EReal)) (ix2 n o)
      ∧ ∃ r : ℝ, layer64 (F := Ideal) (fun i => (hr i : EReal)) (fun i => (ar i : EReal)) (fun i => (wlr i : EReal))
            (fun i => (blr i : EReal)) (fun i => (w0r i : EReal)) (fun i => (b0r i : EReal)) (fun i => (w1r i : EReal))
            (fun i => (b1r i : EReal)) (ix2 n o) = (r : EReal) := by
    intro n o
    rw [linRelu_ix2, linReluAt_cat (K := 64) rfl, biasRow_apply, layer64_apply]
    simp only [addf_apply]
    exact law_entry (fun k => ar (ix2 n k)) (fun k => wlr (ix2 o k)) (fun k => hr (ix2 n k)) (fun k => w0r (ix2 o k))
      (fun k => w1r (ix2 o k)) (blr (ix1 o)) (b0r (ix1 o)) (b1r (ix1 o))
  refine ⟨funext fun j => ?_, isReal_of_forall fun j => ?_⟩
  · obtain ⟨n, o, rfl⟩ : ∃ (n : Fin 100000) (o : Fin 64), j = ix2 n o := ⟨j 0, j 1, eq_ix2 j⟩
    exact (key n o).1
  · obtain ⟨n, o, rfl⟩ : ∃ (n : Fin 100000) (o : Fin 64), j = ix2 n o := ⟨j 0, j 1, eq_ix2 j⟩
    exact (key n o).2

/-- The first layer: the kernel's way equals the reference's, and the result is real-valued. -/
theorem kstep128_eq (x : FVec Ideal S100000x128 .f32) (a1 : (⟨S2x1000000, .i32⟩ : BufTy).Contents (Elt Ideal))
    (a2 : (⟨S1000000, .i32⟩ : BufTy).Contents (Elt Ideal)) (wl : FVec Ideal S64x128 .f32) (bl : FVec Ideal S64 .f32)
    (w0 : FVec Ideal S64x128 .f32) (b0 : FVec Ideal S64 .f32) (w1 : FVec Ideal S64x128 .f32) (b1 : FVec Ideal S64 .f32)
    (hx : IsReal x) (hagg : IsReal (agg128 (F := Ideal) x a1 a2 0#32)) (hwl : IsReal wl) (hbl : IsReal bl)
    (hw0 : IsReal w0) (hb0 : IsReal b0) (hw1 : IsReal w1) (hb1 : IsReal b1) :
    kstep128 x a1 a2 wl bl w0 b0 w1 b1 = net1 (F := Ideal) x a1 a2 wl bl w0 b0 w1 b1
    ∧ IsReal (net1 (F := Ideal) x a1 a2 wl bl w0 b0 w1 b1) := by
  unfold kstep128 net1
  exact layer128_law x (agg128 (F := Ideal) x a1 a2 0#32) wl bl w0 b0 w1 b1 hx hagg hwl hbl hw0 hb0 hw1 hb1

/-- A later layer: the kernel's way equals the reference's, and the result is real-valued. -/
theorem kstep64_eq (h : FVec Ideal S100000x64 .f32) (a1 : (⟨S2x1000000, .i32⟩ : BufTy).Contents (Elt Ideal))
    (a2 : (⟨S1000000, .i32⟩ : BufTy).Contents (Elt Ideal)) (rel : BitVec 32) (wl : FVec Ideal S64x64 .f32)
    (bl : FVec Ideal S64 .f32) (w0 : FVec Ideal S64x64 .f32) (b0 : FVec Ideal S64 .f32) (w1 : FVec Ideal S64x64 .f32)
    (b1 : FVec Ideal S64 .f32)
    (hh : IsReal h) (hagg : IsReal (agg64 (F := Ideal) h a1 a2 rel)) (hwl : IsReal wl) (hbl : IsReal bl)
    (hw0 : IsReal w0) (hb0 : IsReal b0) (hw1 : IsReal w1) (hb1 : IsReal b1) :
    kstep64 h a1 a2 rel wl bl w0 b0 w1 b1 = step64 (F := Ideal) h a1 a2 rel wl bl w0 b0 w1 b1
    ∧ IsReal (step64 (F := Ideal) h a1 a2 rel wl bl w0 b0 w1 b1) := by
  unfold kstep64 step64
  exact layer64_law h (agg64 (F := Ideal) h a1 a2 rel) wl bl w0 b0 w1 b1 hh hagg hwl hbl hw0 hb0 hw1 hb1

end Law

end Cert.Net

end
-- ==== Proof.AggReal.lean ====
import proofs.«139314_j24610162606552_1_alg».proof.Proof.Spec
import proofs.«139314_j24610162606552_1_alg».proof.Proof.Real
import Idealize.ShloMosaic.Lib.ValueIdx
import Idealize.ShloMosaic.PureOps.Ideal.Laws

/-!
# The aggregation of a real-valued feature array is real-valued

At the ideal instance a float is an extended real. The aggregation adds, into an array of zeros, rows that are either
rows of the feature array or zero rows. Each of the operations involved keeps real arrays real:

* reading a real array at other indices (a gather, a broadcast) gives real entries;
* the zero splat is real;
* an entrywise choice between two real arrays is real;
* an accumulating scatter puts at each index the operand's entry plus a finite sum of update entries, and a finite sum
  of real numbers is real.

No property of the index words or of the mask enters: whichever rows are chosen and wherever they land, only real
numbers are ever added.
-/

noncomputable section

open scoped BigOperators

namespace Cert.Net

open Idealize.ShloMosaic Idealize.ShloMosaic.ValueIdx Cert.ReferenceIdeal Cert.ReferenceIdeal.Facts₀ Cert.ReferenceIdeal.Facts

/-- Reading a real array through any map of indices gives a real array. -/
theorem IsReal.comp {ι κ : Type} {v : ι → EReal} (h : IsReal v) (f : κ → ι) : IsReal (fun k => v (f k)) := by
  obtain ⟨r, rfl⟩ := h
  exact ⟨fun k => r (f k), rfl⟩

/-- A real number plus a finite sum of real numbers, taken in the extended reals, is a real number. -/
theorem exists_real_add_sum {κ : Type} (a : ℝ) (S : Finset κ) (f : κ → ℝ) :
    ∃ r : ℝ, (a : EReal) + ∑ k ∈ S, (f k : EReal) = (r : EReal) :=
  ⟨a + ∑ k ∈ S, f k, by rw [coe_sum, EReal.coe_add]⟩

section Ops
variable {s t : Shape}

/-- The splat of the word 0 is the real number 0 everywhere. -/
theorem isReal_constant_zero : IsReal (constant (F := Ideal) s .f32 0x00000000#32) :=
  ⟨fun _ => 0, funext fun i => by rw [constant_apply, Ideal.ofBits_zero_f32, EReal.coe_zero]⟩

/-- A broadcast of a real array is real: each entry of the result is an entry of the operand. -/
theorem isReal_broadcastInDim (dims : Fin s.rank → Fin t.rank) (hb : s.BroadcastsInDim t dims) (x : s.Idx → EReal)
    (hx : IsReal x) : IsReal (broadcastInDim t dims hb x) := by
  unfold broadcastInDim
  exact hx.comp _

/-- A gather from a real array is real: each entry of the result is an entry of the operand. -/
theorem isReal_gather {si : Shape} {w : Nat} (d : GatherDims s si t) (x : s.Idx → EReal) (idx : IVec si w)
    (hx : IsReal x) : IsReal (Host.gather d x idx) := by
  unfold Host.gather
  exact hx.comp _

/-- An entrywise choice between two real arrays is real. -/
theorem isReal_select (c : IVec s 1) (a b : s.Idx → EReal) (ha : IsReal a) (hb : IsReal b) : IsReal (select c a b) := by
  refine isReal_of_forall fun i => ?_
  rw [select_apply]
  unfold Scalar.select
  split
  · exact ha.apply i
  · exact hb.apply i

/-- An accumulating scatter of real updates into a real operand is real: at each index it is the operand's entry plus
    the finite sum of the updates landing there. -/
theorem isReal_scatterAdd {si u : Shape} {w : Nat} {φ : FTy} (d : ScatterDims s si u) (x : FVec Ideal s φ)
    (idx : IVec si w) (upd : FVec Ideal u φ) (hx : IsReal x) (hu : IsReal upd) :
    IsReal (Host.scatterAdd d x idx upd) := by
  refine isReal_of_forall fun i => ?_
  obtain ⟨rx, rfl⟩ := hx
  obtain ⟨ru, rfl⟩ := hu
  show ∃ r : ℝ, Ideal.hostScatterAdd d (fun i => (rx i : EReal)) idx (fun j => (ru j : EReal)) i = (r : EReal)
  unfold Ideal.hostScatterAdd
  exact exists_real_add_sum _ _ _

end Ops

/-- The aggregation on 128 features of a real feature array is real. -/
theorem agg128_real (h : FVec Ideal Cert.ReferenceIdeal.S100000x128 .f32) (hh : IsReal h)
    (a1 : (⟨Cert.ReferenceIdeal.S2x1000000, .i32⟩ : BufTy).Contents (Elt Ideal))
    (a2 : (⟨Cert.ReferenceIdeal.S1000000, .i32⟩ : BufTy).Contents (Elt Ideal)) (rel : BitVec 32) :
    IsReal (agg128 (F := Ideal) h a1 a2 rel) := by
  unfold agg128
  refine isReal_scatterAdd _ _ _ _ ?_ ?_
  · exact isReal_broadcastInDim _ _ _ isReal_constant_zero
  · refine isReal_select _ _ _ ?_ ?_
    · exact isReal_gather _ _ _ hh
    · exact isReal_broadcastInDim _ _ _ isReal_constant_zero

/-- The aggregation on 64 features of a real feature array is real. -/
theorem agg64_real (h : FVec Ideal Cert.ReferenceIdeal.S100000x64 .f32) (hh : IsReal h)
    (a1 : (⟨Cert.ReferenceIdeal.S2x1000000, .i32⟩ : BufTy).Contents (Elt Ideal))
    (a2 : (⟨Cert.ReferenceIdeal.S1000000, .i32⟩ : BufTy).Contents (Elt Ideal)) (rel : BitVec 32) :
    IsReal (agg64 (F := Ideal) h a1 a2 rel) := by
  unfold agg64
  refine isReal_scatterAdd _ _ _ _ ?_ ?_
  · exact isReal_broadcastInDim _ _ _ isReal_constant_zero
  · refine isReal_select _ _ _ ?_ ?_
    · exact isReal_gather _ _ _ hh
    · exact isReal_broadcastInDim _ _ _ isReal_constant_zero

end Cert.Net

end
-- ==== Proof.Bridge.lean ====
import proofs.«139314_j24610162606552_1_alg».proof.Proof.Law
import proofs.«139314_j24610162606552_1_alg».proof.Proof.AggReal

/-!
# Three layers: the kernel's network is the reference's

Layer by layer: the input of a layer is real-valued (the argument `x`, or the layer before it), so its aggregation
is real-valued, so on that layer the kernel's `relu ([agg | h] · [Wl | W0 + W1]ᵀ + (bl + (b0 + b1)))` equals the
reference's `relu (agg · Wlᵀ + bl + h · W0ᵀ + b0 + h · W1ᵀ + b1)` and is again real-valued.
-/

noncomputable section

namespace Cert.Net

open Idealize.ShloMosaic Cert.KernelIdeal

/-- The kernel's three layers are the reference's three layers, on real-valued arguments. -/
theorem net_eq (x : FVec Ideal S100000x128 .f32) (a1 : (⟨S2x1000000, .i32⟩ : BufTy).Contents (Elt Ideal))
    (a2 : (⟨S1000000, .i32⟩ : BufTy).Contents (Elt Ideal))
    (wl0 : FVec Ideal S64x128 .f32) (bl0 : FVec Ideal S64 .f32) (w00 : FVec Ideal S64x128 .f32) (b00 : FVec Ideal S64 .f32) (w10 : FVec Ideal S64x128 .f32) (b10 : FVec Ideal S64 .f32)
    (wl1 : FVec Ideal S64x64 .f32) (bl1 : FVec Ideal S64 .f32) (w01 : FVec Ideal S64x64 .f32) (b01 : FVec Ideal S64 .f32) (w11 : FVec Ideal S64x64 .f32) (b11 : FVec Ideal S64 .f32)
    (wl2 : FVec Ideal S64x64 .f32) (bl2 : FVec Ideal S64 .f32) (w02 : FVec Ideal S64x64 .f32) (b02 : FVec Ideal S64 .f32) (w12 : FVec Ideal S64x64 .f32) (b12 : FVec Ideal S64 .f32)
    (hx : IsReal x) (hwl0 : IsReal wl0) (hbl0 : IsReal bl0) (hw00 : IsReal w00) (hb00 : IsReal b00) (hw10 : IsReal w10) (hb10 : IsReal b10)
    (hwl1 : IsReal wl1) (hbl1 : IsReal bl1) (hw01 : IsReal w01) (hb01 : IsReal b01) (hw11 : IsReal w11) (hb11 : IsReal b11)
    (hwl2 : IsReal wl2) (hbl2 : IsReal bl2) (hw02 : IsReal w02) (hb02 : IsReal b02) (hw12 : IsReal w12) (hb12 : IsReal b12) :
    kstep64 (kstep64 (kstep128 x a1 a2 wl0 bl0 w00 b00 w10 b10) a1 a2 1#32 wl1 bl1 w01 b01 w11 b11) a1 a2 2#32 wl2 bl2 w02 b02 w12 b12
      = step64 (F := Ideal) (step64 (F := Ideal) (net1 (F := Ideal) x a1 a2 wl0 bl0 w00 b00 w10 b10) a1 a2 1#32 wl1 bl1 w01 b01 w11 b11) a1 a2 2#32 wl2 bl2 w02 b02 w12 b12 := by
  obtain ⟨e1, r1⟩ := kstep128_eq x a1 a2 wl0 bl0 w00 b00 w10 b10 hx (agg128_real x hx a1 a2 0#32) hwl0 hbl0 hw00 hb00 hw10 hb10
  rw [e1]
  obtain ⟨e2, r2⟩ := kstep64_eq (net1 (F := Ideal) x a1 a2 wl0 bl0 w00 b00 w10 b10) a1 a2 1#32 wl1 bl1 w01 b01 w11 b11 r1 (agg64_real _ r1 a1 a2 1#32) hwl1 hbl1 hw01 hb01 hw11 hb11
  rw [e2]
  exact (kstep64_eq _ a1 a2 2#32 wl2 bl2 w02 b02 w12 b12 r2 (agg64_real _ r2 a1 a2 2#32) hwl2 hbl2 hw02 hb02 hw12 hb12).1

end Cert.Net

end
-- ==== Proof.lean ====
/-
  A three-layer relational graph convolution on 100000 nodes and 1000000 typed edges. Each layer aggregates, over the
  edges of one relation, the destination node's feature row into the source node, and maps every node to
  relu (agg · Wlᵀ + bl + h · W0ᵀ + b0 + h · W1ᵀ + b1). The reference computes this with three matrix products per layer;
  the kernel lays agg beside h and Wl beside W0 + W1 and computes relu ([agg | h] · [Wl | W0 + W1]ᵀ + (bl + (b0 + b1)))
  in a TensorCore region, block of 5000 rows by block. On the extended reals the two agree because
  h · (W0 + W1) = h · W0 + h · W1 where every factor is a real number — which the precondition gives for the float
  arguments, and which each layer hands to the next (sums, products and maxima of reals are real; the aggregation of a
  real array is a finite sum of its entries).
  The three frames are the generated ones (the reference's is its generated run with the result dropped); the ideal
  pass rewrote nothing, so there is nothing to preserve; the equality of results is assembled here from: the kernel's
  run with its result buffer named (KRun), that buffer read back through the program (KHost, over the three regions'
  output arrays: Region0, Region1, Region2), the reference's result as the same network (RefRun), the finiteness of
  the arguments (Finite), and the layer law carried through three layers (Bridge, over Law and AggReal).
-/
import proofs.«139314_j24610162606552_1_alg».proof.Defs
import proofs.«139314_j24610162606552_1_alg».proof.Proof.Gen.Kernel
import proofs.«139314_j24610162606552_1_alg».proof.Proof.Gen.Kernel.Skeleton
import proofs.«139314_j24610162606552_1_alg».proof.Proof.Gen.Kernel.Launch
import proofs.«139314_j24610162606552_1_alg».proof.Proof.Gen.Kernel.Points
import proofs.«139314_j24610162606552_1_alg».proof.Proof.Gen.Kernel.Frame
import proofs.«139314_j24610162606552_1_alg».proof.Proof.Gen.KernelIdeal
import proofs.«139314_j24610162606552_1_alg».proof.Proof.Gen.KernelIdeal.Skeleton
import proofs.«139314_j24610162606552_1_alg».proof.Proof.Gen.KernelIdeal.Launch
import proofs.«139314_j24610162606552_1_alg».proof.Proof.Gen.KernelIdeal.Points
import proofs.«139314_j24610162606552_1_alg».proof.Proof.Gen.KernelIdeal.Frame
import proofs.«139314_j24610162606552_1_alg».proof.Proof.Gen.ReferenceIdeal
import proofs.«139314_j24610162606552_1_alg».proof.Proof.Gen.ReferenceIdeal.Run
import proofs.«139314_j24610162606552_1_alg».proof.Proof.Gen.Pre_finite_inputs
import proofs.«139314_j24610162606552_1_alg».proof.Proof.KRun
import proofs.«139314_j24610162606552_1_alg».proof.Proof.KHost
import proofs.«139314_j24610162606552_1_alg».proof.Proof.RefRun
import proofs.«139314_j24610162606552_1_alg».proof.Proof.Finite
import proofs.«139314_j24610162606552_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- Both programs end with the three-layer network of the argument arrays in their result buffers: the kernel's by
    reading its result buffer back through the program and the layer law on real-valued arrays, the reference's by
    unfolding its result term. -/
theorem algebraic : Cert.algebraic_KernelIdeal_ReferenceIdeal := by
  intro m ρ m' ρ' hpre hagree
  refine ⟨fun c => Cert.Net.step64 (F := Ideal) (Cert.Net.step64 (F := Ideal) (Cert.Net.net1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) 1#32 (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) 2#32 (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · refine (θ_run Cert.KernelIdeal.defs _ _).mono (fun r h c => ?_) (Cert.KernelIdeal.Val.run_value (F := Ideal) m ρ)
    obtain ⟨hv, hk⟩ := h c
    refine ⟨hv.trans ?_, hk⟩
    obtain ⟨r0, r3, r4, r5, r6, r7, r8, r9, r10, r11, r12, r13, r14, r15, r16, r17, r18, r19, r20⟩ := Cert.Net.pre_real m hpre c
    exact (Cert.KernelIdeal.Host.result_eq m ρ c).trans
      (Cert.Net.net_eq _ _ _ _ _ _ _ _ _ _ _ _ _ _ _ _ _ _ _ _ _ r0 r3 r4 r5 r6 r7 r8 r9 r10 r11 r12 r13 r14 r15 r16 r17 r18 r19 r20)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20⟩ := hagree c
    rw [Cert.ReferenceIdeal.RefValue.res_eq, e0, e1, e2, e3, e4, e5, e6, e7, e8, e9, e10, e11, e12, e13, e14, e15, e16, e17, e18, e19, e20]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
